-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x64x256 : Shape := ⟨4, ![16, 64, 64, 256]⟩
abbrev S256x384 : Shape := ⟨2, ![256, 384]⟩
abbrev S128x256 : Shape := ⟨2, ![128, 256]⟩
abbrev S256 : Shape := ⟨1, ![256]⟩
abbrev S_ : Shape := ⟨0, ![]⟩

class Facts : Prop where
  bcast_S_S16x64x64x256 : S_.BroadcastsInDim S16x64x64x256 (![] : Fin 0 → Fin S16x64x64x256.rank)
  reducesTo_S16x64x64x256_S_d0_1_2_3 : S16x64x64x256.ReducesTo [0, 1, 2, 3] S_
  h_S_ : 0 < S_.numel
  bcast_S_S256x384 : S_.BroadcastsInDim S256x384 (![] : Fin 0 → Fin S256x384.rank)
  reducesTo_S256x384_S_d0_1 : S256x384.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_arg5 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : FVec F S16x64x64x256 .f32) (main_arg1 : FVec F S256x384 .f32) (main_arg2 : FVec F S128x256 .f32) (main_arg3 : FVec F S256 .f32) (main_arg4 : FVec F S256 .f32) (main_arg5 : FVec F S256 .f32) : IVec S_ 1 :=
  let main_v0 : FVec F S16x64x64x256 .f32 := Host.absf main_arg0
  let main_cst : FVec F S_ .f32 := constant S_ .f32 0x7F800000#32
  let main_v1 : FVec F S16x64x64x256 .f32 := broadcastInDim S16x64x64x256 ![] bcast_S_S16x64x64x256 main_cst
  let main_v2 : IVec S16x64x64x256 1 := cmpf .olt main_v0 main_v1
  let main_c : IVec S_ 1 := constantI S_ 1 1#1
  let main_v3 : IVec S_ 1 := (fun x v => Host.reduce IntOp.andi x v reducesTo_S16x64x64x256_S_d0_1_2_3 h_S_) main_v2 main_c
  let main_v4 : FVec F S256x384 .f32 := Host.absf main_arg1
  let main_cst_0 : FVec F S_ .f32 := constant S_ .f32 0x7F800000#32
  let main_v5 : FVec F S256x384 .f32 := broadcastInDim S256x384 ![] bcast_S_S256x384 main_cst_0
  let main_v6 : IVec S256x384 1 := cmpf .olt main_v4 main_v5
  let main_c_1 : IVec S_ 1 := constantI S_ 1 1#1
  let main_v7 : IVec S_ 1 := (fun x v => Host.reduce IntOp.andi x v reducesTo_S256x384_S_d0_1 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_v13 main_v16
-- ==== Kernel.lean ====
abbrev S16x64x64x256 : Shape := ⟨4, ![16, 64, 64, 256]⟩
abbrev S256x384 : Shape := ⟨2, ![256, 384]⟩
abbrev S128x256 : Shape := ⟨2, ![128, 256]⟩
abbrev S256 : Shape := ⟨1, ![256]⟩
abbrev S1x256 : Shape := ⟨2, ![1, 256]⟩
abbrev S1x64x64x256 : Shape := ⟨4, ![1, 64, 64, 256]⟩
abbrev S64x64x256 : Shape := ⟨3, ![64, 64, 256]⟩
abbrev S4096x256 : Shape := ⟨2, ![4096, 256]⟩
abbrev S4096x384 : Shape := ⟨2, ![4096, 384]⟩
abbrev S4096x128 : Shape := ⟨2, ![4096, 128]⟩
abbrev S4096x32 : Shape := ⟨2, ![4096, 32]⟩
abbrev S4096 : Shape := ⟨1, ![4096]⟩
abbrev S4096x1 : Shape := ⟨2, ![4096, 1]⟩
abbrev S32 : Shape := ⟨1, ![32]⟩
abbrev S1x32 : Shape := ⟨2, ![1, 32]⟩
abbrev S32x32 : Shape := ⟨2, ![32, 32]⟩

abbrev nBuf : Space → Nat
  | .hbm => 10
  | .vmem => 9
  | .smem => 0
  | _ => 0

abbrev bufTy : (tb : Table) → Fin (tcTables nBuf tb) → BufTy
  | .hbm, ⟨0, _⟩ => ⟨S16x64x64x256, .f32⟩
  | .hbm, ⟨1, _⟩ => ⟨S256x384, .f32⟩
  | .hbm, ⟨2, _⟩ => ⟨S128x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S1x256, .f32⟩
  | .hbm, ⟨7, _⟩ => ⟨S1x256, .f32⟩
  | .hbm, ⟨8, _⟩ => ⟨S1x256, .f32⟩
  | .hbm, ⟨9, _⟩ => ⟨S16x64x64x256, .f32⟩
  | .local _ .vmem, ⟨0, _⟩ => ⟨S1x64x64x256, .f32⟩
  | .local _ .vmem, ⟨1, _⟩ => ⟨S1x64x64x256, .f32⟩
  | .local _ .vmem, ⟨2, _⟩ => ⟨S256x384, .f32⟩
  | .local _ .vmem, ⟨3, _⟩ => ⟨S128x256, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | .local _ .vmem, ⟨7, _⟩ => ⟨S1x64x64x256, .f32⟩
  | .local _ .vmem, ⟨8, _⟩ => ⟨S1x64x64x256, .f32⟩
  | _, _ => ⟨S16x64x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x64x64x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x64x64x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S256_S1x256 : S256.ShapeCasts S1x256
  inb_S1x64x64x256_S1x64x64x256_0_0_0_0 : ∀ a, (![0, 0, 0, 0] : Fin 4 → Nat) a + S1x64x64x256.size a ≤ S1x64x64x256.size a
  h_S1x64x64x256 : 0 < S1x64x64x256.numel
  shapeCasts_S1x64x64x256_S64x64x256 : S1x64x64x256.ShapeCasts S64x64x256
  shapeCasts_S64x64x256_S4096x256 : S64x64x256.ShapeCasts S4096x256
  bitsLt_bf16_f32 : FTy.bits .bf16 < FTy.bits .f32
  inb_S256x384_S256x384_0_0 : ∀ a, (![0, 0] : Fin 2 → Nat) a + S256x384.size a ≤ S256x384.size a
  h_S256x384 : 0 < S256x384.numel
  slices_S4096x384_o0_0_S4096x128 : S4096x384.Slices ![0, 0] S4096x128
  slices_S4096x384_o0_128_S4096x128 : S4096x384.Slices ![0, 128] S4096x128
  slices_S4096x384_o0_256_S4096x128 : S4096x384.Slices ![0, 256] S4096x128
  slices_S4096x128_o0_0_S4096x32 : S4096x128.Slices ![0, 0] S4096x32
  reduces_S4096x32_S4096 : S4096x32.Reduces [1] S4096
  shapeCasts_S4096_S4096x1 : S4096.ShapeCasts S4096x1
  broadcasts_S4096x1_S4096x32 : S4096x1.Broadcasts S4096x32
  reduces_S4096x32_S32 : S4096x32.Reduces [0] S32
  shapeCasts_S32_S1x32 : S32.ShapeCasts S1x32
  broadcasts_S1x32_S4096x32 : S1x32.Broadcasts S4096x32
  slices_S4096x128_o0_32_S4096x32 : S4096x128.Slices ![0, 32] S4096x32
  slices_S4096x128_o0_64_S4096x32 : S4096x128.Slices ![0, 64] S4096x32
  slices_S4096x128_o0_96_S4096x32 : S4096x128.Slices ![0, 96] S4096x32
  concatenates_S4096x32_S4096x32_S4096x32_S4096x32_S4096x128_d1 : Shape.Concatenates [S4096x32, S4096x32, S4096x32, S4096x32] S4096x128 1
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  reduces_S4096x256_S4096 : S4096x256.Reduces [1] S4096
  broadcasts_S4096x1_S4096x256 : S4096x1.Broadcasts S4096x256
  shapeCasts_S4096x256_S64x64x256 : S4096x256.ShapeCasts S64x64x256
  shapeCasts_S64x64x256_S1x64x64x256 : S64x64x256.ShapeCasts S1x64x64x256
  dot_S4096x256_S256x384_S4096x384_1_0_0_1_n_n_wf : DotDims.WF S4096x256 S256x384 S4096x384 [1] [0] [0] [1] [] []
  dot_S4096x32_S4096x32_S32x32_0_0_1_1_n_n_wf : DotDims.WF S4096x32 S4096x32 S32x32 [0] [0] [1] [1] [] []
  dot_S4096x32_S32x32_S4096x32_1_0_0_1_n_n_wf : DotDims.WF S4096x32 S32x32 S4096x32 [1] [0] [0] [1] [] []
  dot_S4096x128_S128x256_S4096x256_1_0_0_1_n_n_wf : DotDims.WF S4096x128 S128x256 S4096x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x64x256.size a ≤ S16x64x64x256.size a
  hwx0_0 : ∀ i : grid0.Coords, EltTy.bits .f32 = 32 ∨ (Rect.block (s := S16x64x64x256) S1x64x64x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x384.size a ≤ S256x384.size a
  hwx0_1 : ∀ i : grid0.Coords, EltTy.bits .f32 = 32 ∨ (Rect.block (s := S256x384) S256x384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x64x64x256.size a ≤ S16x64x64x256.size a
  hwx0_6 : ∀ i : grid0.Coords, EltTy.bits .f32 = 32 ∨ (Rect.block (s := S16x64x64x256) S1x64x64x256.size (cc0_transform_6 i) (hinb0_6 i)).WholeWords (EltTy.packing .f32)

variable [Facts₀]

def dot_S4096x256_S256x384_S4096x384_1_0_0_1_n_n : DotDims S4096x256 S256x384 S4096x384 where
  lhsContracting := [1]
  rhsContracting := [0]
  lhsNonContracting := [0]
  rhsNonContracting := [1]
  lhsBatch := []
  rhsBatch := []
  wf := dot_S4096x256_S256x384_S4096x384_1_0_0_1_n_n_wf
def dot_S4096x32_S4096x32_S32x32_0_0_1_1_n_n : DotDims S4096x32 S4096x32 S32x32 where
  lhsContracting := [0]
  rhsContracting := [0]
  lhsNonContracting := [1]
  rhsNonContracting := [1]
  lhsBatch := []
  rhsBatch := []
  wf := dot_S4096x32_S4096x32_S32x32_0_0_1_1_n_n_wf
def dot_S4096x32_S32x32_S4096x32_1_0_0_1_n_n : DotDims S4096x32 S32x32 S4096x32 where
  lhsContracting := [1]
  rhsContracting := [0]
  lhsNonContracting := [0]
  rhsNonContracting := [1]
  lhsBatch := []
  rhsBatch := []
  wf := dot_S4096x32_S32x32_S4096x32_1_0_0_1_n_n_wf
def dot_S4096x128_S128x256_S4096x256_1_0_0_1_n_n : DotDims S4096x128 S128x256 S4096x256 where
  lhsContracting := [1]
  rhsContracting := [0]
  lhsNonContracting := [0]
  rhsNonContracting := [1]
  lhsBatch := []
  rhsBatch := []
  wf := dot_S4096x128_S128x256_S4096x256_1_0_0_1_n_n_wf

abbrev win0_0 : Pipeline.Window sig grid0 :=
  Pipeline.Window.ofSpec (Memref.whole main_arg0) S1x64x64x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x64x64x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16x64x64x256 : Shape := ⟨4, ![16, 64, 64, 256]⟩
abbrev S256x384 : Shape := ⟨2, ![256, 384]⟩
abbrev S128x256 : Shape := ⟨2, ![128, 256]⟩
abbrev S256 : Shape := ⟨1, ![256]⟩
abbrev S16x64x64x384 : Shape := ⟨4, ![16, 64, 64, 384]⟩
abbrev S16x64x64x128 : Shape := ⟨4, ![16, 64, 64, 128]⟩
abbrev S16x64x64x4x32 : Shape := ⟨5, ![16, 64, 64, 4, 32]⟩
abbrev S16x4x32x64x64 : Shape := ⟨5, ![16, 4, 32, 64, 64]⟩
abbrev S16x4x32x4096 : Shape := ⟨4, ![16, 4, 32, 4096]⟩
abbrev S_ : Shape := ⟨0, ![]⟩
abbrev S16x4x4096 : Shape := ⟨3, ![16, 4, 4096]⟩
abbrev S16x4x1x4096 : Shape := ⟨4, ![16, 4, 1, 4096]⟩
abbrev S16x4x32 : Shape := ⟨3, ![16, 4, 32]⟩
abbrev S16x4x32x1 : Shape := ⟨4, ![16, 4, 32, 1]⟩
abbrev S16x4x32x32 : Shape := ⟨4, ![16, 4, 32, 32]⟩
abbrev S1x1x1x256 : Shape := ⟨4, ![1, 1, 1, 256]⟩
abbrev S16x64x64 : Shape := ⟨3, ![16, 64, 64]⟩
abbrev S16x64x64x1 : Shape := ⟨4, ![16, 64, 64, 1]⟩

abbrev nBuf : Space → Nat
  | .hbm => 88
  | .vmem => 0
  | .smem => 0
  | _ => 0

abbrev bufTy : (tb : Table) → Fin (tcTables nBuf tb) → BufTy
  | .hbm, ⟨0, _⟩ => ⟨S16x64x64x256, .f32⟩
  | .hbm, ⟨1, _⟩ => ⟨S256x384, .f32⟩
  | .hbm, ⟨2, _⟩ => ⟨S128x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S16x64x64x384, .f32⟩
  | .hbm, ⟨7, _⟩ => ⟨S16x64x64x128, .f32⟩
  | .hbm, ⟨8, _⟩ => ⟨S16x64x64x128, .f32⟩
  | .hbm, ⟨9, _⟩ => ⟨S16x64x64x128, .f32⟩
  | .hbm, ⟨10, _⟩ => ⟨S16x64x64x4x32, .f32⟩
  | .hbm, ⟨11, _⟩ => ⟨S16x4x32x64x64, .f32⟩
  | .hbm, ⟨12, _⟩ => ⟨S16x4x32x4096, .f32⟩
  | .hbm, ⟨13, _⟩ => ⟨S16x64x64x4x32, .f32⟩
  | .hbm, ⟨14, _⟩ => ⟨S16x4x32x64x64, .f32⟩
  | .hbm, ⟨15, _⟩ => ⟨S16x4x32x4096, .f32⟩
  | .hbm, ⟨16, _⟩ => ⟨S16x64x64x4x32, .f32⟩
  | .hbm, ⟨17, _⟩ => ⟨S16x4x32x64x64, .f32⟩
  | .hbm, ⟨18, _⟩ => ⟨S16x4x32x4096, .f32⟩
  | .hbm, ⟨19, _⟩ => ⟨S_, .f32⟩
  | .hbm, ⟨20, _⟩ => ⟨S16x4x4096, .f32⟩
  | .hbm, ⟨21, _⟩ => ⟨S_, .f32⟩
  | .hbm, ⟨22, _⟩ => ⟨S16x4x4096, .f32⟩
  | .hbm, ⟨23, _⟩ => ⟨S16x4x4096, .f32⟩
  | .hbm, ⟨24, _⟩ => ⟨S16x4x1x4096, .f32⟩
  | .hbm, ⟨25, _⟩ => ⟨S16x4x32x4096, .f32⟩
  | .hbm, ⟨26, _⟩ => ⟨S16x4x32x4096, .f32⟩
  | .hbm, ⟨27, _⟩ => ⟨S16x4x32x4096, .f32⟩
  | .hbm, ⟨28, _⟩ => ⟨S_, .f32⟩
  | .hbm, ⟨29, _⟩ => ⟨S16x4x4096, .f32⟩
  | .hbm, ⟨30, _⟩ => ⟨S16x4x1x4096, .f32⟩
  | .hbm, ⟨31, _⟩ => ⟨S16x4x32x4096, .f32⟩
  | .hbm, ⟨32, _⟩ => ⟨S16x4x32x4096, .f32⟩
  | .hbm, ⟨33, _⟩ => ⟨S_, .f32⟩
  | .hbm, ⟨34, _⟩ => ⟨S16x4x32x4096, .f32⟩
  | .hbm, ⟨35, _⟩ => ⟨S16x4x32x4096, .f32⟩
  | .hbm, ⟨36, _⟩ => ⟨S_, .f32⟩
  | .hbm, ⟨37, _⟩ => ⟨S16x4x32, .f32⟩
  | .hbm, ⟨38, _⟩ => ⟨S_, .f32⟩
  | .hbm, ⟨39, _⟩ => ⟨S16x4x32, .f32⟩
  | .hbm, ⟨40, _⟩ => ⟨S16x4x32, .f32⟩
  | .hbm, ⟨41, _⟩ => ⟨S16x4x32x1, .f32⟩
  | .hbm, ⟨42, _⟩ => ⟨S16x4x32x4096, .f32⟩
  | .hbm, ⟨43, _⟩ => ⟨S16x4x32x4096, .f32⟩
  | .hbm, ⟨44, _⟩ => ⟨S16x4x32x4096, .f32⟩
  | .hbm, ⟨45, _⟩ => ⟨S_, .f32⟩
  | .hbm, ⟨46, _⟩ => ⟨S16x4x32, .f32⟩
  | .hbm, ⟨47, _⟩ => ⟨S16x4x32x1, .f32⟩
  | .hbm, ⟨48, _⟩ => ⟨S16x4x32x4096, .f32⟩
  | .hbm, ⟨49, _⟩ => ⟨S16x4x32x4096, .f32⟩
  | .hbm, ⟨50, _⟩ => ⟨S16x4x32x32, .f32⟩
  | .hbm, ⟨51, _⟩ => ⟨S16x4x32x4096, .f32⟩
  | .hbm, ⟨52, _⟩ => ⟨S16x4x32x64x64, .f32⟩
  | .hbm, ⟨53, _⟩ => ⟨S16x64x64x4x32, .f32⟩
  | .hbm, ⟨54, _⟩ => ⟨S16x64x64x128, .f32⟩
  | .hbm, ⟨55, _⟩ => ⟨S16x64x64x256, .f32⟩
  | .hbm, ⟨56, _⟩ => ⟨S1x1x1x256, .f32⟩
  | .hbm, ⟨57, _⟩ => ⟨S16x64x64x256, .f32⟩
  | .hbm, ⟨58, _⟩ => ⟨S16x64x64x256, .f32⟩
  | .hbm, ⟨59, _⟩ => ⟨S_, .f32⟩
  | .hbm, ⟨60, _⟩ => ⟨S16x64x64, .f32⟩
  | .hbm, ⟨61, _⟩ => ⟨S16x64x64x1, .f32⟩
  | .hbm, ⟨62, _⟩ => ⟨S_, .f32⟩
  | .hbm, ⟨63, _⟩ => ⟨S16x64x64x1, .f32⟩
  | .hbm, ⟨64, _⟩ => ⟨S16x64x64x1, .f32⟩
  | .hbm, ⟨65, _⟩ => ⟨S16x64x64x256, .f32⟩
  | .hbm, ⟨66, _⟩ => ⟨S16x64x64x256, .f32⟩
  | .hbm, ⟨67, _⟩ => ⟨S16x64x64x256, .f32⟩
  | .hbm, ⟨68, _⟩ => ⟨S_, .f32⟩
  | .hbm, ⟨69, _⟩ => ⟨S16x64x64, .f32⟩
  | .hbm, ⟨70, _⟩ => ⟨S16x64x64x1, .f32⟩
  | .hbm, ⟨71, _⟩ => ⟨S_, .f32⟩
  | .hbm, ⟨72, _⟩ => ⟨S16x64x64x1, .f32⟩
  | .hbm, ⟨73, _⟩ => ⟨S16x64x64x1, .f32⟩
  | .hbm, ⟨74, _⟩ => ⟨S16x64x64x256, .f32⟩
  | .hbm, ⟨75, _⟩ => ⟨S16x64x64x256, .f32⟩
  | .hbm, ⟨76, _⟩ => ⟨S_, .f32⟩
  | .hbm, ⟨77, _⟩ => ⟨S16x64x64x1, .f32⟩
  | .hbm, ⟨78, _⟩ => ⟨S16x64x64x1, .f32⟩
  | .hbm, ⟨79, _⟩ => ⟨S16x64x64x1, .f32⟩
  | .hbm, ⟨80, _⟩ => ⟨S16x64x64x256, .f32⟩
  | .hbm, ⟨81, _⟩ => ⟨S16x64x64x256, .f32⟩
  | .hbm, ⟨82, _⟩ => ⟨S1x1x1x256, .f32⟩
  | .hbm, ⟨83, _⟩ => ⟨S16x64x64x256, .f32⟩
  | .hbm, ⟨84, _⟩ => ⟨S16x64x64x256, .f32⟩
  | .hbm, ⟨85, _⟩ => ⟨S1x1x1x256, .f32⟩
  | .hbm, ⟨86, _⟩ => ⟨S16x64x64x256, .f32⟩
  | .hbm, ⟨87, _⟩ => ⟨S16x64x64x256, .f32⟩
  | _, _ => ⟨S16x64x64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_6 : Ref sig .tc := ⟨.hbm, 59, rfl⟩
abbrev main_v46 : Ref sig .tc := ⟨.hbm, 60, rfl⟩
abbrev main_v47 : Ref sig .tc := ⟨.hbm, 61, rfl⟩
abbrev main_cst_7 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_8 : Ref sig .tc := ⟨.hbm, 68, rfl⟩
abbrev main_v53 : Ref sig .tc := ⟨.hbm, 69, rfl⟩
abbrev main_v54 : Ref sig .tc := ⟨.hbm, 70, rfl⟩
abbrev main_cst_9 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_10 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩

abbrev nD : Nat := 1
abbrev τ : Topo := Topo.v7x

variable {F : FTy → Type} [FloatOps F]

class Facts₀ : Prop where
  slices_S16x64x64x384_S16x64x64x128_0_0_0_0 : S16x64x64x384.Slices ![0, 0, 0, 0] S16x64x64x128
  slices_S16x64x64x384_S16x64x64x128_0_0_0_128 : S16x64x64x384.Slices ![0, 0, 0, 128] S16x64x64x128
  slices_S16x64x64x384_S16x64x64x128_0_0_0_256 : S16x64x64x384.Slices ![0, 0, 0, 256] S16x64x64x128
  shapeCasts_S16x64x64x128_S16x64x64x4x32 : S16x64x64x128.ShapeCasts S16x64x64x4x32
  transposes_S16x64x64x4x32_S16x4x32x64x64_0_3_4_1_2 : S16x64x64x4x32.Transposes [0, 3, 4, 1, 2] S16x4x32x64x64
  shapeCasts_S16x4x32x64x64_S16x4x32x4096 : S16x4x32x64x64.ShapeCasts S16x4x32x4096
  reducesTo_S16x4x32x4096_S16x4x4096_d2 : S16x4x32x4096.ReducesTo [2] S16x4x4096
  h_S_ : 0 < S_.numel
  bcast_S_S16x4x4096 : S_.BroadcastsInDim S16x4x4096 (![] : Fin 0 → Fin S16x4x4096.rank)
  bcast_S16x4x4096_S16x4x1x4096_0_1_3 : S16x4x4096.BroadcastsInDim S16x4x1x4096 (![0, 1, 3] : Fin 3 → Fin S16x4x1x4096.rank)
  bcast_S16x4x1x4096_S16x4x32x4096_0_1_2_3 : S16x4x1x4096.BroadcastsInDim S16x4x32x4096 (![0, 1, 2, 3] : Fin 4 → Fin S16x4x32x4096.rank)
  bcast_S_S16x4x32x4096 : S_.BroadcastsInDim S16x4x32x4096 (![] : Fin 0 → Fin S16x4x32x4096.rank)
  reducesTo_S16x4x32x4096_S16x4x32_d3 : S16x4x32x4096.ReducesTo [3] S16x4x32
  bcast_S_S16x4x32 : S_.BroadcastsInDim S16x4x32 (![] : Fin 0 → Fin S16x4x32.rank)
  bcast_S16x4x32_S16x4x32x1_0_1_2 : S16x4x32.BroadcastsInDim S16x4x32x1 (![0, 1, 2] : Fin 3 → Fin S16x4x32x1.rank)
  bcast_S16x4x32x1_S16x4x32x4096_0_1_2_3 : S16x4x32x1.BroadcastsInDim S16x4x32x4096 (![0, 1, 2, 3] : Fin 4 → Fin S16x4x32x4096.rank)
  shapeCasts_S16x4x32x4096_S16x4x32x64x64 : S16x4x32x4096.ShapeCasts S16x4x32x64x64
  transposes_S16x4x32x64x64_S16x64x64x4x32_0_3_4_1_2 : S16x4x32x64x64.Transposes [0, 3, 4, 1, 2] S16x64x64x4x32
  shapeCasts_S16x64x64x4x32_S16x64x64x128 : S16x64x64x4x32.ShapeCasts S16x64x64x128
  bcast_S256_S1x1x1x256_3 : S256.BroadcastsInDim S1x1x1x256 (![3] : Fin 1 → Fin S1x1x1x256.rank)
  bcast_S1x1x1x256_S16x64x64x256_0_1_2_3 : S1x1x1x256.BroadcastsInDim S16x64x64x256 (![0, 1, 2, 3] : Fin 4 → Fin S16x64x64x256.rank)
  reducesTo_S16x64x64x256_S16x64x64_d3 : S16x64x64x256.ReducesTo [3] S16x64x64
  bcast_S16x64x64_S16x64x64x1_0_1_2 : S16x64x64.BroadcastsInDim S16x64x64x1 (![0, 1, 2] : Fin 3 → Fin S16x64x64x1.rank)
  bcast_S_S16x64x64x1 : S_.BroadcastsInDim S16x64x64x1 (![] : Fin 0 → Fin S16x64x64x1.rank)
  bcast_S16x64x64x1_S16x64x64x256_0_1_2_3 : S16x64x64x1.BroadcastsInDim S16x64x64x256 (![0, 1, 2, 3] : Fin 4 → Fin S16x64x64x256.rank)
  dot_S16x64x64x256_S256x384_S16x64x64x384_3_0_012_1_n_n_wf : DotDims.WF S16x64x64x256 S256x384 S16x64x64x384 [3] [0] [0, 1, 2] [1] [] []
  dot_S16x4x32x4096_S16x4x32x4096_S16x4x32x32_3_3_2_2_01_01_wf : DotDims.WF S16x4x32x4096 S16x4x32x4096 S16x4x32x32 [3] [3] [2] [2] [0, 1] [0, 1]
  dot_S16x4x32x32_S16x4x32x4096_S16x4x32x4096_2_2_3_3_01_01_wf : DotDims.WF S16x4x32x32 S16x4x32x4096 S16x4x32x4096 [2] [2] [3] [3] [0, 1] [0, 1]
  dot_S16x64x64x128_S128x256_S16x64x64x256_3_0_012_1_n_n_wf : DotDims.WF S16x64x64x128 S128x256 S16x64x64x256 [3] [0] [0, 1, 2] [1] [] []

variable [Facts₀]

def dot_S16x64x64x256_S256x384_S16x64x64x384_3_0_012_1_n_n : DotDims S16x64x64x256 S256x384 S16x64x64x384 where
  lhsContracting := [3]
  rhsContracting := [0]
  lhsNonContracting := [0, 1, 2]
  rhsNonContracting := [1]
  lhsBatch := []
  rhsBatch := []
  wf := dot_S16x64x64x256_S256x384_S16x64x64x384_3_0_012_1_n_n_wf
def dot_S16x4x32x4096_S16x4x32x4096_S16x4x32x32_3_3_2_2_01_01 : DotDims S16x4x32x4096 S16x4x32x4096 S16x4x32x32 where
  lhsContracting := [3]
  rhsContracting := [3]
  lhsNonContracting := [2]
  rhsNonContracting := [2]
  lhsBatch := [0, 1]
  rhsBatch := [0, 1]
  wf := dot_S16x4x32x4096_S16x4x32x4096_S16x4x32x32_3_3_2_2_01_01_wf
def dot_S16x4x32x32_S16x4x32x4096_S16x4x32x4096_2_2_3_3_01_01 : DotDims S16x4x32x32 S16x4x32x4096 S16x4x32x4096 where
  lhsContracting := [2]
  rhsContracting := [2]
  lhsNonContracting := [3]
  rhsNonContracting := [3]
  lhsBatch := [0, 1]
  rhsBatch := [0, 1]
  wf := dot_S16x4x32x32_S16x4x32x4096_S16x4x32x4096_2_2_3_3_01_01_wf
def dot_S16x64x64x128_S128x256_S16x64x64x256_3_0_012_1_n_n : DotDims S16x64x64x128 S128x256 S16x64x64x256 where
  lhsContracting := [3]
  rhsContracting := [0]
  lhsNonContracting := [0, 1, 2]
  rhsNonContracting := [1]
  lhsBatch := []
  rhsBatch := []
  wf := dot_S16x64x64x128_S128x256_S16x64x64x256_3_0_012_1_n_n_wf

class Facts : Prop extends Facts₀ where

variable [Facts]
-- ==== Proof.LibKeepdims.lean ====
/-
  General lemmas, over the library only: a rank-2 float array reduced along one axis with the reduced axis kept
  (`jnp.max(x, axis, keepdims=True)`, `jnp.sum(x, axis, keepdims=True)`) and broadcast back over the array, read at an
  index given by coordinates.

  * the keepdims casts and broadcasts the library's ValueLayout does not have: a vector `[a]` cast to a column `[a, 1]`
    (`shapeCast_a_a1_apply`) and a column `[a, 1]` broadcast over `[a, b]` (`broadcastTo_a1_ab_apply`);
  * the index a one-axis reduction of a matrix inserts (`lift_row`, `lift_col`);
  * at the ideal float values, a `vector.multi_reduction` of a matrix along its rows or columns read at a coordinate:
    a maximum as the fold of `max` from the accumulator's value (`maxRow_apply`, `maxCol_apply`), a sum as the
    `Fin`-indexed sum (`sumRow_apply`, `sumCol_apply`); the accumulator's two proof arguments are hypotheses, so
    the lemmas apply to a printed reduction whatever proof terms it carries;
  * the four composites a softmax over either axis meets: reduce, keep the axis, broadcast back — read at `(i, j)`
    (`maxRow_keep_apply`, `sumRow_keep_apply`, `maxCol_keep_apply`, `sumCol_keep_apply`).
-/
import Idealize.ShloMosaic.PureOps.Ideal.Laws
import Idealize.ShloMosaic.Lib.ValueIdx
import Idealize.ShloMosaic.Lib.ValueLayout
import Idealize.ShloMosaic.Lib.Pipeline.Value

noncomputable section

namespace Idealize.ShloMosaic.Keepdims

open Idealize.ShloMosaic Idealize.ShloMosaic.ValueIdx

variable {α : Type}

/-! ## The keepdims column forms -/

/-- A vector `[a]` cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A vector `[b]` cast to a row `[1, b]` and broadcast over `[a, b]` is in the library
    (`shapeCast_a_1a_apply`, `broadcastTo_1b_ab_apply`); a column `[a, 1]` broadcast over `[a, b]` reads, at `(i, j)`,
    the column's entry `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-! ## The index a one-axis reduction of a matrix inserts -/

/-- Reducing a matrix along its rows (axis 1): the reduced index `i` with column `k` put back is `(i, k)`. -/
theorem lift_row {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- Reducing a matrix along its columns (axis 0): the reduced index `j` with row `k` put back is `(k, j)`. -/
theorem lift_col {a b : ℕ} (h : (⟨2, ![a, b]⟩ : Shape).Reduces [0] (⟨1, ![b]⟩ : Shape)) (j : Fin b)
    (k : Fin ((⟨2, ![a, b]⟩ : Shape).size 0)) : h.lift (ix1 j) k = ix2 (⟨k.val, k.isLt⟩ : Fin a) j := by
  funext c; apply Fin.ext
  fin_cases c <;> rfl

/-! ## A matrix reduced along one axis, at the ideal values, read at a coordinate -/

section AtIdeal
variable {φ : FTy} {a b : ℕ}

/-- The maximum of each row: the fold of `max` from the accumulator's value over the row's entries. -/
theorem maxRow_apply (x : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (i : Fin a) :
    multiReduction .maximumf [1] ⟨1, ![a]⟩ x acc h hφ hacc (ix1 i)
      = (Finset.univ : Finset (Fin b)).fold max (Ideal.ofBits φ acc) (fun j => x (ix2 i j)) := by
  refine (Ideal.multiReduction_maximumf_single x acc h hφ hacc (ix1 i)).trans ?_
  show (Finset.univ : Finset (Fin b)).fold max (Ideal.ofBits φ acc) (x ∘ h.lift (ix1 i)) = _
  exact congrArg (fun f => Finset.fold max (Ideal.ofBits φ acc) f (Finset.univ : Finset (Fin b)))
    (funext fun k => congrArg x (lift_row h i k))

/-- The sum of each row. -/
theorem sumRow_apply (x : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (i : Fin a) :
    multiReduction .add [1] ⟨1, ![a]⟩ x acc h hφ hacc (ix1 i) = ∑ j : Fin b, x (ix2 i j) := by
  refine (Ideal.multiReduction_add_single x acc h hφ hacc (ix1 i)).trans ?_
  show ∑ k : Fin b, x (h.lift (ix1 i) k) = _
  exact Finset.sum_congr rfl fun k _ => congrArg x (lift_row h i k)

/-- The maximum of each column. -/
theorem maxCol_apply (x : FVec Ideal ⟨2, ![a, b]⟩ φ) (acc : BitVec φ.bits)
    (h : (⟨2, ![a, b]⟩ : Shape).Reduces [0] (⟨1, ![b]⟩ : Shape)) (hφ : FKind.Formats φ)
    (hacc : acc = FKind.maximumf.neutral φ hφ) (j : Fin b) :
    multiReduction .maximumf [0] ⟨1, ![b]⟩ x acc h hφ hacc (ix1 j)
      = (Finset.univ : Finset (Fin a)).fold max (Ideal.ofBits φ acc) (fun i => x (ix2 i j)) := by
  refine (Ideal.multiReduction_maximumf_single x acc h hφ hacc (ix1 j)).trans ?_
  show (Finset.univ : Finset (Fin a)).fold max (Ideal.ofBits φ acc) (x ∘ h.lift (ix1 j)) = _
  exact congrArg (fun f => Finset.fold max (Ideal.ofBits φ acc) f (Finset.univ : Finset (Fin a)))
    (funext fun k => congrArg x (lift_col h j k))

/-- The sum of each column. -/
theorem sumCol_apply (x : FVec Ideal ⟨2, ![a, b]⟩ φ) (acc : BitVec φ.bits)
    (h : (⟨2, ![a, b]⟩ : Shape).Reduces [0] (⟨1, ![b]⟩ : Shape)) (hφ : FKind.Formats φ)
    (hacc : acc = FKind.add.neutral φ hφ) (j : Fin b) :
    multiReduction .add [0] ⟨1, ![b]⟩ x acc h hφ hacc (ix1 j) = ∑ i : Fin a, x (ix2 i j) := by
  refine (Ideal.multiReduction_add_single x acc h hφ hacc (ix1 j)).trans ?_
  show ∑ k : Fin a, x (h.lift (ix1 j) k) = _
  exact Finset.sum_congr rfl fun k _ => congrArg x (lift_col h j k)

/-! ## Reduce, keep the axis, broadcast back -/

/-- Each row's maximum, kept as a column and broadcast back over the matrix, at `(i, j)`. -/
theorem maxRow_keep_apply (x : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (hc : (⟨1, ![a]⟩ : Shape).ShapeCasts ⟨2, ![a, 1]⟩)
    (hb : (⟨2, ![a, 1]⟩ : Shape).Broadcasts ⟨2, ![a, b]⟩) (i : Fin a) (j : Fin b) :
    broadcastTo ⟨2, ![a, b]⟩ (shapeCast ⟨2, ![a, 1]⟩ (multiReduction .maximumf [1] ⟨1, ![a]⟩ x acc h hφ hacc) hc) hb (ix2 i j)
      = (Finset.univ : Finset (Fin b)).fold max (Ideal.ofBits φ acc) (fun j' => x (ix2 i j')) :=
  (broadcastTo_a1_ab_apply _ hb i j).trans ((shapeCast_a_a1_apply _ hc i 0).trans (maxRow_apply x acc h hφ hacc i))

/-- Each row's sum, kept as a column and broadcast back, at `(i, j)`. -/
theorem sumRow_keep_apply (x : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (hc : (⟨1, ![a]⟩ : Shape).ShapeCasts ⟨2, ![a, 1]⟩)
    (hb : (⟨2, ![a, 1]⟩ : Shape).Broadcasts ⟨2, ![a, b]⟩) (i : Fin a) (j : Fin b) :
    broadcastTo ⟨2, ![a, b]⟩ (shapeCast ⟨2, ![a, 1]⟩ (multiReduction .add [1] ⟨1, ![a]⟩ x acc h hφ hacc) hc) hb (ix2 i j)
      = ∑ j' : Fin b, x (ix2 i j') :=
  (broadcastTo_a1_ab_apply _ hb i j).trans ((shapeCast_a_a1_apply _ hc i 0).trans (sumRow_apply x acc h hφ hacc i))

/-- Each column's maximum, kept as a row and broadcast back, at `(i, j)`. -/
theorem maxCol_keep_apply (x : FVec Ideal ⟨2, ![a, b]⟩ φ) (acc : BitVec φ.bits)
    (h : (⟨2, ![a, b]⟩ : Shape).Reduces [0] (⟨1, ![b]⟩ : Shape)) (hφ : FKind.Formats φ)
    (hacc : acc = FKind.maximumf.neutral φ hφ) (hc : (⟨1, ![b]⟩ : Shape).ShapeCasts ⟨2, ![1, b]⟩)
    (hb : (⟨2, ![1, b]⟩ : Shape).Broadcasts ⟨2, ![a, b]⟩) (i : Fin a) (j : Fin b) :
    broadcastTo ⟨2, ![a, b]⟩ (shapeCast ⟨2, ![1, b]⟩ (multiReduction .maximumf [0] ⟨1, ![b]⟩ x acc h hφ hacc) hc) hb (ix2 i j)
      = (Finset.univ : Finset (Fin a)).fold max (Ideal.ofBits φ acc) (fun i' => x (ix2 i' j)) :=
  (broadcastTo_1b_ab_apply _ hb i j).trans ((shapeCast_a_1a_apply _ hc 0 j).trans (maxCol_apply x acc h hφ hacc j))

/-- Each column's sum, kept as a row and broadcast back, at `(i, j)`. -/
theorem sumCol_keep_apply (x : FVec Ideal ⟨2, ![a, b]⟩ φ) (acc : BitVec φ.bits)
    (h : (⟨2, ![a, b]⟩ : Shape).Reduces [0] (⟨1, ![b]⟩ : Shape)) (hφ : FKind.Formats φ)
    (hacc : acc = FKind.add.neutral φ hφ) (hc : (⟨1, ![b]⟩ : Shape).ShapeCasts ⟨2, ![1, b]⟩)
    (hb : (⟨2, ![1, b]⟩ : Shape).Broadcasts ⟨2, ![a, b]⟩) (i : Fin a) (j : Fin b) :
    broadcastTo ⟨2, ![a, b]⟩ (shapeCast ⟨2, ![1, b]⟩ (multiReduction .add [0] ⟨1, ![b]⟩ x acc h hφ hacc) hc) hb (ix2 i j)
      = ∑ i' : Fin a, x (ix2 i' j) :=
  (broadcastTo_1b_ab_apply _ hb i j).trans ((shapeCast_a_1a_apply _ hc 0 j).trans (sumCol_apply x acc h hφ hacc j))

end AtIdeal

end Idealize.ShloMosaic.Keepdims

end
-- ==== Proof.Spec.lean ====
/-
  Linear attention with two softmaxes, followed by an output projection and a layer normalisation, over the
  extended reals: the ONE function both programs compute, written over plain coordinate functions.

  For one image, from the projected array `qkv : tokens × 384` (token n, feature f):
  head h (of 4) reads its query, key and value columns at 32·h + d, 128 + 32·h + d and 256 + 32·h + d (d < 32);
  the queries are soft-maxed over d at each token and scaled, the keys are soft-maxed over the tokens at each d;
  the context of a head is ctx[d, e] = Σ_n k[n, d] · v[n, e], and the head's result is out[n, e] = Σ_d q[n, d] · ctx[d, e];
  the heads' results side by side, times the output weights, plus the bias, are normalised over the 256 channels.
  A soft-max subtracts the maximum (taken from −∞ upward), exponentiates, and divides by the sum.
-/
import Idealize.ShloMosaic.PureOps.Ideal.Laws
import Idealize.ShloMosaic.Lib.ValueIdx

noncomputable section

namespace Cert.LinAttn

open Idealize.ShloMosaic

/-- −∞, as both programs spell it. -/
abbrev wNegInf : EReal := Ideal.ofBits .f32 0xFF800000#32
/-- The query scale (the float nearest 32^(-1/2)), as both programs spell it. -/
abbrev wScale : EReal := Ideal.ofBits .f32 0x3E3504F3#32
/-- 256, the number of channels. -/
abbrev w256 : EReal := Ideal.ofBits .f32 0x43800000#32
/-- The normalisation's epsilon, as both programs spell it. -/
abbrev wEps : EReal := Ideal.ofBits .f32 0x3A83126F#32

section Softmax
variable {ι : Type} [Fintype ι]

/-- e^(r i − max r), the maximum taken from −∞ upward (and once more against −∞, as both programs do). -/
def expShift (r : ι → EReal) (i : ι) : EReal :=
  Ideal.exp (r i - max wNegInf ((Finset.univ : Finset ι).fold max wNegInf r))

/-- The soft-max of a finite family. -/
def softmax (r : ι → EReal) (i : ι) : EReal := Ideal.div (expShift r i) (∑ j, expShift r j)

end Softmax

/-- Head h's query column d. -/
def qIx (h : Fin 4) (d : Fin 32) : Fin 384 := ⟨32 * h.val + d.val, by have := h.isLt; have := d.isLt; omega⟩
/-- Head h's key column d. -/
def kIx (h : Fin 4) (d : Fin 32) : Fin 384 := ⟨128 + (32 * h.val + d.val), by have := h.isLt; have := d.isLt; omega⟩
/-- Head h's value column e. -/
def vIx (h : Fin 4) (e : Fin 32) : Fin 384 := ⟨256 + (32 * h.val + e.val), by have := h.isLt; have := e.isLt; omega⟩

section Heads
variable (qkv : Fin 4096 → Fin 384 → EReal)

/-- The scaled soft-max of head h's queries over d, at token n. -/
def qs (h : Fin 4) (n : Fin 4096) (d : Fin 32) : EReal := softmax (fun d' => qkv n (qIx h d')) d * wScale

/-- The soft-max of head h's keys over the tokens, at column d. -/
def ks (h : Fin 4) (n : Fin 4096) (d : Fin 32) : EReal := softmax (fun n' => qkv n' (kIx h d)) n

/-- Head h's context: keys against values, summed over the tokens. -/
def ctx (h : Fin 4) (d e : Fin 32) : EReal := ∑ n, ks qkv h n d * qkv n (vIx h e)

/-- Head h's result at token n, column e. -/
def headOut (h : Fin 4) (n : Fin 4096) (e : Fin 32) : EReal := ∑ d, qs qkv h n d * ctx qkv h d e

/-- The heads' results side by side: column j is head j / 32, column j % 32. -/
def attn (n : Fin 4096) (j : Fin 128) : EReal :=
  headOut qkv ⟨j.val / 32, by have := j.isLt; omega⟩ n ⟨j.val % 32, Nat.mod_lt _ (by decide)⟩

/-- The output projection with its bias. -/
def proj (wo : Fin 128 → Fin 256 → EReal) (bo : Fin 256 → EReal) (n : Fin 4096) (c : Fin 256) : EReal :=
  (∑ j, attn qkv n j * wo j c) + bo c

end Heads

/-- The mean of a row of 256 channels. -/
def mean256 (y : Fin 256 → EReal) : EReal := Ideal.div (∑ c, y c) w256

/-- The layer normalisation of a row of 256 channels, with its scale and shift. -/
def lnorm (y g be : Fin 256 → EReal) (c : Fin 256) : EReal :=
  (y c - mean256 y) * Ideal.rsqrt (mean256 (fun c' => (y c' - mean256 y) * (y c' - mean256 y)) + wEps) * g c + be c

/-- The projected array of image b: token n = 64·p + q reads pixel (p, q). -/
def qkvOf (x : Fin 16 → Fin 64 → Fin 64 → Fin 256 → EReal) (w : Fin 256 → Fin 384 → EReal) (b : Fin 16)
    (n : Fin 4096) (f : Fin 384) : EReal :=
  ∑ c, x b ⟨n.val / 64, by have := n.isLt; omega⟩ ⟨n.val % 64, Nat.mod_lt _ (by decide)⟩ c * w c f

/-- The token of pixel (p, q). -/
def tok (p q : Fin 64) : Fin 4096 := ⟨p.val * 64 + q.val, by have := p.isLt; have := q.isLt; omega⟩

/-- The whole computation at image b, pixel (p, q), channel c. -/
def result (x : Fin 16 → Fin 64 → Fin 64 → Fin 256 → EReal) (w : Fin 256 → Fin 384 → EReal)
    (wo : Fin 128 → Fin 256 → EReal) (bo g be : Fin 256 → EReal) (b : Fin 16) (p q : Fin 64) (c : Fin 256) : EReal :=
  lnorm (fun c' => proj (qkvOf x w b) wo bo (tok p q) c') g be c

end Cert.LinAttn

end
-- ==== Proof.KSoftmax.lean ====
/-
  The kernel's soft-max stages on one head's [4096, 32] matrix (rows = tokens, columns = the head's 32 features), at the
  extended reals, read at coordinates: the exponentials shifted by the row maximum (queries: over the 32 features) or by
  the column maximum (keys: over the 4096 tokens), and their normalisation by the row sum (with the query scale) or by
  the column sum.
-/
import proofs.«122063_j5257039970858_2_alg».proof.Proof.Gen.KernelIdeal
import proofs.«122063_j5257039970858_2_alg».proof.Proof.LibKeepdims
import proofs.«122063_j5257039970858_2_alg».proof.Proof.Spec

import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Stages

open Cert.KernelIdeal Cert.KernelIdeal.Gen Idealize.ShloMosaic Idealize.ShloMosaic.ValueIdx Idealize.ShloMosaic.Keepdims
open Cert.LinAttn

/-- One head's matrix: tokens by features. -/
abbrev M := FVec Ideal S4096x32 .f32

/-- Each row's maximum (from −∞, and once more against −∞), broadcast back over the row. -/
def rowMaxB (a : M) : M :=
  broadcastTo S4096x32 (shapeCast S4096x1 (maximumf (broadcast S4096 (Scalar.ofBits .f32 0xFF800000#32))
    (multiReduction .maximumf [1] S4096 a 0xFF800000#32 reduces_S4096x32_S4096 (.inl rfl) rfl)) shapeCasts_S4096_S4096x1) broadcasts_S4096x1_S4096x32

/-- Each row's sum, broadcast back over the row. -/
def rowSumB (e : M) : M :=
  broadcastTo S4096x32 (shapeCast S4096x1 (multiReduction .add [1] S4096 e 0x00000000#32 reduces_S4096x32_S4096 (.inl rfl) rfl)
    shapeCasts_S4096_S4096x1) broadcasts_S4096x1_S4096x32

/-- Each column's maximum, broadcast back over the column. -/
def colMaxB (a : M) : M :=
  broadcastTo S4096x32 (shapeCast S1x32 (maximumf (broadcast S32 (Scalar.ofBits .f32 0xFF800000#32))
    (multiReduction .maximumf [0] S32 a 0xFF800000#32 reduces_S4096x32_S32 (.inl rfl) rfl)) shapeCasts_S32_S1x32) broadcasts_S1x32_S4096x32

/-- Each column's sum, broadcast back over the column. -/
def colSumB (e : M) : M :=
  broadcastTo S4096x32 (shapeCast S1x32 (multiReduction .add [0] S32 e 0x00000000#32 reduces_S4096x32_S32 (.inl rfl) rfl)
    shapeCasts_S32_S1x32) broadcasts_S1x32_S4096x32

/-- The exponentials of a matrix shifted by its row maxima. -/
def rowE (a : M) : M := exp (subf a (rowMaxB a))
/-- Exponentials divided by their row sums, times the query scale. -/
def rowN (e : M) : M := mulf (divf e (rowSumB e)) (broadcast S4096x32 (Scalar.ofBits .f32 0x3E3504F3#32))
/-- The exponentials of a matrix shifted by its column maxima. -/
def colE (a : M) : M := exp (subf a (colMaxB a))
/-- Exponentials divided by their column sums. -/
def colN (e : M) : M := divf e (colSumB e)

theorem rowMaxB_apply (a : M) (n : Fin 4096) (d : Fin 32) :
    rowMaxB a (ix2 n d) = max wNegInf ((Finset.univ : Finset (Fin 32)).fold max wNegInf (fun d' => a (ix2 n d'))) := by
  refine (broadcastTo_a1_ab_apply _ broadcasts_S4096x1_S4096x32 n d).trans ?_
  refine (shapeCast_a_a1_apply _ shapeCasts_S4096_S4096x1 n 0).trans ?_
  exact congrArg (max wNegInf) (maxRow_apply a _ reduces_S4096x32_S4096 (.inl rfl) rfl n)

theorem rowSumB_apply (e : M) (n : Fin 4096) (d : Fin 32) : rowSumB e (ix2 n d) = ∑ d' : Fin 32, e (ix2 n d') :=
  sumRow_keep_apply e _ reduces_S4096x32_S4096 (.inl rfl) rfl shapeCasts_S4096_S4096x1 broadcasts_S4096x1_S4096x32 n d

theorem colMaxB_apply (a : M) (n : Fin 4096) (d : Fin 32) :
    colMaxB a (ix2 n d) = max wNegInf ((Finset.univ : Finset (Fin 4096)).fold max wNegInf (fun n' => a (ix2 n' d))) := by
  refine (broadcastTo_1b_ab_apply _ broadcasts_S1x32_S4096x32 n d).trans ?_
  refine (shapeCast_a_1a_apply _ shapeCasts_S32_S1x32 0 d).trans ?_
  exact congrArg (max wNegInf) (maxCol_apply a _ reduces_S4096x32_S32 (.inl rfl) rfl d)

theorem colSumB_apply (e : M) (n : Fin 4096) (d : Fin 32) : colSumB e (ix2 n d) = ∑ n' : Fin 4096, e (ix2 n' d) :=
  sumCol_keep_apply e _ reduces_S4096x32_S32 (.inl rfl) rfl shapeCasts_S32_S1x32 broadcasts_S1x32_S4096x32 n d

/-- The row stage at (n, d): the shifted exponential of row n's family. -/
theorem rowE_apply (a : M) (n : Fin 4096) (d : Fin 32) : rowE a (ix2 n d) = expShift (fun d' => a (ix2 n d')) d :=
  congrArg (fun z => Ideal.exp (a (ix2 n d) - z)) (rowMaxB_apply a n d)

/-- The column stage at (n, d): the shifted exponential of column d's family. -/
theorem colE_apply (a : M) (n : Fin 4096) (d : Fin 32) : colE a (ix2 n d) = expShift (fun n' => a (ix2 n' d)) n :=
  congrArg (fun z => Ideal.exp (a (ix2 n d) - z)) (colMaxB_apply a n d)

theorem rowN_apply (e : M) (n : Fin 4096) (d : Fin 32) :
    rowN e (ix2 n d) = Ideal.div (e (ix2 n d)) (∑ d' : Fin 32, e (ix2 n d')) * wScale :=
  congrArg (fun z => Ideal.div (e (ix2 n d)) z * wScale) (rowSumB_apply e n d)

theorem colN_apply (e : M) (n : Fin 4096) (d : Fin 32) :
    colN e (ix2 n d) = Ideal.div (e (ix2 n d)) (∑ n' : Fin 4096, e (ix2 n' d)) :=
  congrArg (fun z => Ideal.div (e (ix2 n d)) z) (colSumB_apply e n d)

/-- The whole query soft-max of a head's matrix, at (n, d). -/
theorem rowN_rowE_apply (a : M) (n : Fin 4096) (d : Fin 32) :
    rowN (rowE a) (ix2 n d) = softmax (fun d' => a (ix2 n d')) d * wScale := by
  rw [rowN_apply, rowE_apply]
  unfold softmax
  exact congrArg (fun z => Ideal.div _ z * wScale) (Finset.sum_congr rfl fun d' _ => rowE_apply a n d')

/-- The whole key soft-max of a head's matrix, at (n, d). -/
theorem colN_colE_apply (a : M) (n : Fin 4096) (d : Fin 32) :
    colN (colE a) (ix2 n d) = softmax (fun n' => a (ix2 n' d)) n := by
  rw [colN_apply, colE_apply]
  unfold softmax
  exact congrArg (fun z => Ideal.div _ z) (Finset.sum_congr rfl fun n' _ => colE_apply a n' d)

end Cert.KernelIdeal.Stages

end
-- ==== Proof.KMatmul.lean ====
/-
  The kernel's four matrix products, at the extended reals, read at coordinates as plain sums:
  the projection of an image's 4096 tokens (pixel (p, q) is token 64·p + q) onto the 384 query / key / value features;
  a head's context, keys against values, summed over the tokens; a head's result, queries against the context;
  and the output projection. A product into a zero accumulator is the sum of the products; a change of float format is the
  identity.
-/
import proofs.«122063_j5257039970858_2_alg».proof.Proof.Gen.KernelIdeal
import proofs.«122063_j5257039970858_2_alg».proof.Proof.LibKeepdims
import proofs.«122063_j5257039970858_2_alg».proof.Proof.Spec
import proofs.«122063_j5257039970858_2_alg».proof.Proof.Gen.KernelIdeal.Skeleton
import proofs.«122063_j5257039970858_2_alg».proof.Proof.KSoftmax
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Stages

open Cert.KernelIdeal Cert.KernelIdeal.Gen Idealize.ShloMosaic Idealize.ShloMosaic.ValueIdx
open Cert.LinAttn

/-! ## Which operand coordinate each product reads, axis by axis -/

theorem dCtx_l0 (j : _) (q : dot_S4096x32_S4096x32_S32x32_0_0_1_1_n_n.contr.Idx) : (dot_S4096x32_S4096x32_S32x32_0_0_1_1_n_n.lhsIdx j q 0).val = (q ⟨0, by decide⟩).val :=
  dot_S4096x32_S4096x32_S32x32_0_0_1_1_n_n.lhsIdx_val_of_single rfl j q
theorem dCtx_l1 (j : _) (q : dot_S4096x32_S4096x32_S32x32_0_0_1_1_n_n.contr.Idx) : (dot_S4096x32_S4096x32_S32x32_0_0_1_1_n_n.lhsIdx j q 1).val = (j 0).val := by
  unfold DotDims.lhsIdx
  rw [dif_neg (show ¬(1 : Fin S4096x32.rank) ∈ dot_S4096x32_S4096x32_S32x32_0_0_1_1_n_n.lhsBatch by decide), dif_pos (show (1 : Fin S4096x32.rank) ∈ dot_S4096x32_S4096x32_S32x32_0_0_1_1_n_n.lhsNonContracting by decide)]
  rfl
theorem dCtx_r0 (j : _) (q : dot_S4096x32_S4096x32_S32x32_0_0_1_1_n_n.contr.Idx) : (dot_S4096x32_S4096x32_S32x32_0_0_1_1_n_n.rhsIdx j q 0).val = (q ⟨0, by decide⟩).val :=
  dot_S4096x32_S4096x32_S32x32_0_0_1_1_n_n.rhsIdx_val_of_single rfl j q
theorem dCtx_r1 (j : _) (q : dot_S4096x32_S4096x32_S32x32_0_0_1_1_n_n.contr.Idx) : (dot_S4096x32_S4096x32_S32x32_0_0_1_1_n_n.rhsIdx j q 1).val = (j 1).val := by
  unfold DotDims.rhsIdx
  rw [dif_neg (show ¬(1 : Fin S4096x32.rank) ∈ dot_S4096x32_S4096x32_S32x32_0_0_1_1_n_n.rhsBatch by decide), dif_pos (show (1 : Fin S4096x32.rank) ∈ dot_S4096x32_S4096x32_S32x32_0_0_1_1_n_n.rhsNonContracting by decide)]
  rfl

theorem dOut_l0 (j : _) (q : dot_S4096x32_S32x32_S4096x32_1_0_0_1_n_n.contr.Idx) : (dot_S4096x32_S32x32_S4096x32_1_0_0_1_n_n.lhsIdx j q 0).val = (j 0).val := by
  unfold DotDims.lhsIdx
  rw [dif_neg (show ¬(0 : Fin S4096x32.rank) ∈ dot_S4096x32_S32x32_S4096x32_1_0_0_1_n_n.lhsBatch by decide), dif_pos (show (0 : Fin S4096x32.rank) ∈ dot_S4096x32_S32x32_S4096x32_1_0_0_1_n_n.lhsNonContracting by decide)]
  rfl
theorem dOut_l1 (j : _) (q : dot_S4096x32_S32x32_S4096x32_1_0_0_1_n_n.contr.Idx) : (dot_S4096x32_S32x32_S4096x32_1_0_0_1_n_n.lhsIdx j q 1).val = (q ⟨0, by decide⟩).val :=
  dot_S4096x32_S32x32_S4096x32_1_0_0_1_n_n.lhsIdx_val_of_single rfl j q
theorem dOut_r0 (j : _) (q : dot_S4096x32_S32x32_S4096x32_1_0_0_1_n_n.contr.Idx) : (dot_S4096x32_S32x32_S4096x32_1_0_0_1_n_n.rhsIdx j q 0).val = (q ⟨0, by decide⟩).val :=
  dot_S4096x32_S32x32_S4096x32_1_0_0_1_n_n.rhsIdx_val_of_single rfl j q
theorem dOut_r1 (j : _) (q : dot_S4096x32_S32x32_S4096x32_1_0_0_1_n_n.contr.Idx) : (dot_S4096x32_S32x32_S4096x32_1_0_0_1_n_n.rhsIdx j q 1).val = (j 1).val := by
  unfold DotDims.rhsIdx
  rw [dif_neg (show ¬(1 : Fin S32x32.rank) ∈ dot_S4096x32_S32x32_S4096x32_1_0_0_1_n_n.rhsBatch by decide), dif_pos (show (1 : Fin S32x32.rank) ∈ dot_S4096x32_S32x32_S4096x32_1_0_0_1_n_n.rhsNonContracting by decide)]
  rfl

theorem dProj_l0 (j : _) (q : dot_S4096x128_S128x256_S4096x256_1_0_0_1_n_n.contr.Idx) : (dot_S4096x128_S128x256_S4096x256_1_0_0_1_n_n.lhsIdx j q 0).val = (j 0).val := by
  unfold DotDims.lhsIdx
  rw [dif_neg (show ¬(0 : Fin S4096x128.rank) ∈ dot_S4096x128_S128x256_S4096x256_1_0_0_1_n_n.lhsBatch by decide), dif_pos (show (0 : Fin S4096x128.rank) ∈ dot_S4096x128_S128x256_S4096x256_1_0_0_1_n_n.lhsNonContracting by decide)]
  rfl
theorem dProj_l1 (j : _) (q : dot_S4096x128_S128x256_S4096x256_1_0_0_1_n_n.contr.Idx) : (dot_S4096x128_S128x256_S4096x256_1_0_0_1_n_n.lhsIdx j q 1).val = (q ⟨0, by decide⟩).val :=
  dot_S4096x128_S128x256_S4096x256_1_0_0_1_n_n.lhsIdx_val_of_single rfl j q
theorem dProj_r0 (j : _) (q : dot_S4096x128_S128x256_S4096x256_1_0_0_1_n_n.contr.Idx) : (dot_S4096x128_S128x256_S4096x256_1_0_0_1_n_n.rhsIdx j q 0).val = (q ⟨0, by decide⟩).val :=
  dot_S4096x128_S128x256_S4096x256_1_0_0_1_n_n.rhsIdx_val_of_single rfl j q
theorem dProj_r1 (j : _) (q : dot_S4096x128_S128x256_S4096x256_1_0_0_1_n_n.contr.Idx) : (dot_S4096x128_S128x256_S4096x256_1_0_0_1_n_n.rhsIdx j q 1).val = (j 1).val := by
  unfold DotDims.rhsIdx
  rw [dif_neg (show ¬(1 : Fin S128x256.rank) ∈ dot_S4096x128_S128x256_S4096x256_1_0_0_1_n_n.rhsBatch by decide), dif_pos (show (1 : Fin S128x256.rank) ∈ dot_S4096x128_S128x256_S4096x256_1_0_0_1_n_n.rhsNonContracting by decide)]
  rfl

theorem dQkv_l0 (j : _) (q : dot_S4096x256_S256x384_S4096x384_1_0_0_1_n_n.contr.Idx) : (dot_S4096x256_S256x384_S4096x384_1_0_0_1_n_n.lhsIdx j q 0).val = (j 0).val := by
  unfold DotDims.lhsIdx
  rw [dif_neg (show ¬(0 : Fin S4096x256.rank) ∈ dot_S4096x256_S256x384_S4096x384_1_0_0_1_n_n.lhsBatch by decide), dif_pos (show (0 : Fin S4096x256.rank) ∈ dot_S4096x256_S256x384_S4096x384_1_0_0_1_n_n.lhsNonContracting by decide)]
  rfl
theorem dQkv_l1 (j : _) (q : dot_S4096x256_S256x384_S4096x384_1_0_0_1_n_n.contr.Idx) : (dot_S4096x256_S256x384_S4096x384_1_0_0_1_n_n.lhsIdx j q 1).val = (q ⟨0, by decide⟩).val :=
  dot_S4096x256_S256x384_S4096x384_1_0_0_1_n_n.lhsIdx_val_of_single rfl j q
theorem dQkv_r0 (j : _) (q : dot_S4096x256_S256x384_S4096x384_1_0_0_1_n_n.contr.Idx) : (dot_S4096x256_S256x384_S4096x384_1_0_0_1_n_n.rhsIdx j q 0).val = (q ⟨0, by decide⟩).val :=
  dot_S4096x256_S256x384_S4096x384_1_0_0_1_n_n.rhsIdx_val_of_single rfl j q
theorem dQkv_r1 (j : _) (q : dot_S4096x256_S256x384_S4096x384_1_0_0_1_n_n.contr.Idx) : (dot_S4096x256_S256x384_S4096x384_1_0_0_1_n_n.rhsIdx j q 1).val = (j 1).val := by
  unfold DotDims.rhsIdx
  rw [dif_neg (show ¬(1 : Fin S256x384.rank) ∈ dot_S4096x256_S256x384_S4096x384_1_0_0_1_n_n.rhsBatch by decide), dif_pos (show (1 : Fin S256x384.rank) ∈ dot_S4096x256_S256x384_S4096x384_1_0_0_1_n_n.rhsNonContracting by decide)]
  rfl

/-! ## The products -/

/-- A head's context: the normalised keys against the values, contracted over the tokens. -/
def ctxM (kn v : M) : FVec Ideal S32x32 .f32 :=
  matmul dot_S4096x32_S4096x32_S32x32_0_0_1_1_n_n none (truncf .bf16 kn bitsLt_bf16_f32) (truncf .bf16 v bitsLt_bf16_f32) (constant S32x32 .f32 0x00000000#32)

/-- A head's result: the scaled queries against the context. -/
def outM (qn : M) (cx : FVec Ideal S32x32 .f32) : M :=
  matmul dot_S4096x32_S32x32_S4096x32_1_0_0_1_n_n none qn cx (constant S4096x32 .f32 0x00000000#32)

/-- The output projection of the heads' results. -/
def projM (hs : FVec Ideal S4096x128 .f32) (wo : Vec Ideal S128x256 .f32) : FVec Ideal S4096x256 .f32 :=
  matmul dot_S4096x128_S128x256_S4096x256_1_0_0_1_n_n none (truncf .bf16 hs bitsLt_bf16_f32) (truncf .bf16 wo bitsLt_bf16_f32) (constant S4096x256 .f32 0x00000000#32)

theorem ctxM_apply (kn v : M) (d e : Fin 32) : ctxM kn v (ix2 d e) = ∑ n : Fin 4096, kn (ix2 n d) * v (ix2 n e) := by
  unfold ctxM
  simp only [matmul]
  rw [Ideal.matmul_constant_zero_apply, ← Equiv.sum_comp (contrEquiv1 dot_S4096x32_S4096x32_S32x32_0_0_1_1_n_n 4096 rfl rfl).symm]
  refine Finset.sum_congr rfl fun k _ => ?_
  have hk := contrEquiv1_symm_val dot_S4096x32_S4096x32_S32x32_0_0_1_1_n_n 4096 rfl rfl k
  have el : dot_S4096x32_S4096x32_S32x32_0_0_1_1_n_n.lhsIdx (ix2 d e) ((contrEquiv1 dot_S4096x32_S4096x32_S32x32_0_0_1_1_n_n 4096 rfl rfl).symm k) = ix2 k d := funext fun a => Fin.ext (by
    match a with
    | ⟨0, _⟩ => exact (dCtx_l0 _ _).trans hk
    | ⟨1, _⟩ => exact dCtx_l1 _ _)
  have er : dot_S4096x32_S4096x32_S32x32_0_0_1_1_n_n.rhsIdx (ix2 d e) ((contrEquiv1 dot_S4096x32_S4096x32_S32x32_0_0_1_1_n_n 4096 rfl rfl).symm k) = ix2 k e := funext fun a => Fin.ext (by
    match a with
    | ⟨0, _⟩ => exact (dCtx_r0 _ _).trans hk
    | ⟨1, _⟩ => exact dCtx_r1 _ _)
  rw [el, er]
  rfl

theorem outM_apply (qn : M) (cx : FVec Ideal S32x32 .f32) (n : Fin 4096) (e : Fin 32) :
    outM qn cx (ix2 n e) = ∑ d : Fin 32, qn (ix2 n d) * cx (ix2 d e) := by
  unfold outM
  simp only [matmul]
  rw [Ideal.matmul_constant_zero_apply, ← Equiv.sum_comp (contrEquiv1 dot_S4096x32_S32x32_S4096x32_1_0_0_1_n_n 32 rfl rfl).symm]
  refine Finset.sum_congr rfl fun k _ => ?_
  have hk := contrEquiv1_symm_val dot_S4096x32_S32x32_S4096x32_1_0_0_1_n_n 32 rfl rfl k
  have el : dot_S4096x32_S32x32_S4096x32_1_0_0_1_n_n.lhsIdx (ix2 n e) ((contrEquiv1 dot_S4096x32_S32x32_S4096x32_1_0_0_1_n_n 32 rfl rfl).symm k) = ix2 n k := funext fun a => Fin.ext (by
    match a with
    | ⟨0, _⟩ => exact dOut_l0 _ _
    | ⟨1, _⟩ => exact (dOut_l1 _ _).trans hk)
  have er : dot_S4096x32_S32x32_S4096x32_1_0_0_1_n_n.rhsIdx (ix2 n e) ((contrEquiv1 dot_S4096x32_S32x32_S4096x32_1_0_0_1_n_n 32 rfl rfl).symm k) = ix2 k e := funext fun a => Fin.ext (by
    match a with
    | ⟨0, _⟩ => exact (dOut_r0 _ _).trans hk
    | ⟨1, _⟩ => exact dOut_r1 _ _)
  rw [el, er]

theorem projM_apply (hs : FVec Ideal S4096x128 .f32) (wo : Vec Ideal S128x256 .f32) (n : Fin 4096) (c : Fin 256) :
    projM hs wo (ix2 n c) = ∑ j : Fin 128, hs (ix2 n j) * wo (ix2 j c) := by
  unfold projM
  simp only [matmul]
  rw [Ideal.matmul_constant_zero_apply, ← Equiv.sum_comp (contrEquiv1 dot_S4096x128_S128x256_S4096x256_1_0_0_1_n_n 128 rfl rfl).symm]
  refine Finset.sum_congr rfl fun k _ => ?_
  have hk := contrEquiv1_symm_val dot_S4096x128_S128x256_S4096x256_1_0_0_1_n_n 128 rfl rfl k
  have el : dot_S4096x128_S128x256_S4096x256_1_0_0_1_n_n.lhsIdx (ix2 n c) ((contrEquiv1 dot_S4096x128_S128x256_S4096x256_1_0_0_1_n_n 128 rfl rfl).symm k) = ix2 n k := funext fun a => Fin.ext (by
    match a with
    | ⟨0, _⟩ => exact dProj_l0 _ _
    | ⟨1, _⟩ => exact (dProj_l1 _ _).trans hk)
  have er : dot_S4096x128_S128x256_S4096x256_1_0_0_1_n_n.rhsIdx (ix2 n c) ((contrEquiv1 dot_S4096x128_S128x256_S4096x256_1_0_0_1_n_n 128 rfl rfl).symm k) = ix2 k c := funext fun a => Fin.ext (by
    match a with
    | ⟨0, _⟩ => exact (dProj_r0 _ _).trans hk
    | ⟨1, _⟩ => exact dProj_r1 _ _)
  rw [el, er]
  rfl

/-- An image's block [1, 64, 64, 256] re-laid as tokens by channels: token n is pixel (n / 64, n % 64). -/
theorem tokens_apply (v0 : Vec Ideal S1x64x64x256 .f32) (n : Fin 4096) (c : Fin 256) :
    shapeCast S4096x256 (shapeCast S64x64x256 v0 shapeCasts_S1x64x64x256_S64x64x256) shapeCasts_S64x64x256_S4096x256 (ix2 n c)
      = v0 (ix4 (0 : Fin 1) (⟨n.val / 64, by have := n.isLt; omega⟩ : Fin 64) (⟨n.val % 64, Nat.mod_lt _ (by decide)⟩ : Fin 64) c) := by
  have hn := n.isLt
  refine (shapeCast_apply _ _ (ix2 n c) (ix3 (⟨n.val / 64, by omega⟩ : Fin 64) (⟨n.val % 64, Nat.mod_lt _ (by decide)⟩ : Fin 64) c) ?_).trans ?_
  · rw [Shape.rowMajor_val_three, Shape.rowMajor_val_two]
    show (n.val / 64 * 64 + n.val % 64) * 256 + c.val = n.val * 256 + c.val
    omega
  · refine shapeCast_apply _ _ _ _ ?_
    rw [Shape.rowMajor_val_four, Shape.rowMajor_val_three]
    show ((0 * 64 + n.val / 64) * 64 + n.val % 64) * 256 + c.val = (n.val / 64 * 64 + n.val % 64) * 256 + c.val
    omega

/-- The projected array of the image: at (n, f) the sum over the channels of the token's pixel times the weights. -/
theorem pay2_apply (v0 : Vec Ideal S1x64x64x256 .f32) (v4 : Vec Ideal S256x384 .f32) (n : Fin 4096) (f : Fin 384) :
    k0_pay2 v0 v4 (ix2 n f)
      = ∑ c : Fin 256, v0 (ix4 (0 : Fin 1) (⟨n.val / 64, by have := n.isLt; omega⟩ : Fin 64) (⟨n.val % 64, Nat.mod_lt _ (by decide)⟩ : Fin 64) c) * v4 (ix2 c f) := by
  unfold k0_pay2
  show (matmul (F := Ideal) dot_S4096x256_S256x384_S4096x384_1_0_0_1_n_n none (truncf (F := Ideal) .bf16 (shapeCast S4096x256 (shapeCast S64x64x256 v0 shapeCasts_S1x64x64x256_S64x64x256) shapeCasts_S64x64x256_S4096x256) bitsLt_bf16_f32)
    (truncf (F := Ideal) .bf16 v4 bitsLt_bf16_f32) (constant S4096x384 .f32 0x00000000#32)) (ix2 n f) = _
  simp only [matmul]
  rw [Ideal.matmul_constant_zero_apply, ← Equiv.sum_comp (contrEquiv1 dot_S4096x256_S256x384_S4096x384_1_0_0_1_n_n 256 rfl rfl).symm]
  refine Finset.sum_congr rfl fun k _ => ?_
  have hk := contrEquiv1_symm_val dot_S4096x256_S256x384_S4096x384_1_0_0_1_n_n 256 rfl rfl k
  have el : dot_S4096x256_S256x384_S4096x384_1_0_0_1_n_n.lhsIdx (ix2 n f) ((contrEquiv1 dot_S4096x256_S256x384_S4096x384_1_0_0_1_n_n 256 rfl rfl).symm k) = ix2 n k := funext fun a => Fin.ext (by
    match a with
    | ⟨0, _⟩ => exact dQkv_l0 _ _
    | ⟨1, _⟩ => exact (dQkv_l1 _ _).trans hk)
  have er : dot_S4096x256_S256x384_S4096x384_1_0_0_1_n_n.rhsIdx (ix2 n f) ((contrEquiv1 dot_S4096x256_S256x384_S4096x384_1_0_0_1_n_n 256 rfl rfl).symm k) = ix2 k f := funext fun a => Fin.ext (by
    match a with
    | ⟨0, _⟩ => exact (dQkv_r0 _ _).trans hk
    | ⟨1, _⟩ => exact dQkv_r1 _ _)
  rw [el, er]
  exact congrArg (· * v4 (ix2 k f)) (tokens_apply v0 n k)

end Cert.KernelIdeal.Stages

end
-- ==== Proof.KHeads.lean ====
/-
  The kernel's heads, at the extended reals. The projected array [4096, 384] is cut into thirds (queries, keys, values:
  columns 0.., 128.., 256..), and head h reads columns 32·h .. 32·h + 31 of each third. A head's result is
  queries-soft-maxed-over-features (scaled) against the context, the context being keys-soft-maxed-over-tokens against
  values: the specification's `headOut`. The four heads' results are laid side by side: column j is head j / 32, column
  j % 32 — the specification's `attn`.
-/
import proofs.«122063_j5257039970858_2_alg».proof.Proof.Gen.KernelIdeal
import proofs.«122063_j5257039970858_2_alg».proof.Proof.LibKeepdims
import proofs.«122063_j5257039970858_2_alg».proof.Proof.Spec
import proofs.«122063_j5257039970858_2_alg».proof.Proof.KMatmul
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Stages

open Cert.KernelIdeal Cert.KernelIdeal.Gen Idealize.ShloMosaic Idealize.ShloMosaic.ValueIdx
open Cert.LinAttn

/-- The projected array as the kernel holds it. -/
abbrev QKV := FVec Ideal S4096x384 .bf16
/-- A third of it. -/
abbrev Third := FVec Ideal S4096x128 .bf16

/-- The queries' third. -/
def thirdQ (X : QKV) : Third := extractStridedSlice S4096x128 ![0, 0] X slices_S4096x384_o0_0_S4096x128
/-- The keys' third. -/
def thirdK (X : QKV) : Third := extractStridedSlice S4096x128 ![0, 128] X slices_S4096x384_o0_128_S4096x128
/-- The values' third. -/
def thirdV (X : QKV) : Third := extractStridedSlice S4096x128 ![0, 256] X slices_S4096x384_o0_256_S4096x128

/-- A head's 32 columns of a third, from column o, widened to f32. -/
def hd (T : Third) (o : ℕ) (hs : S4096x128.Slices ![0, o] S4096x32) : M :=
  extf .f32 (extractStridedSlice S4096x32 ![0, o] T hs) bitsLt_bf16_f32

theorem hd_apply (T : Third) (o : ℕ) (hs : S4096x128.Slices ![0, o] S4096x32) (n : Fin 4096) (d : Fin 32) (k : Fin 128)
    (hk : k.val = o + d.val) : hd T o hs (ix2 n d) = T (ix2 n k) :=
  slice2_axis1_apply o T hs n d k hk

theorem thirdQ_apply (X : QKV) (n : Fin 4096) (j : Fin 128) (k : Fin 384) (hk : k.val = 0 + j.val) : thirdQ X (ix2 n j) = X (ix2 n k) :=
  slice2_axis1_apply 0 X slices_S4096x384_o0_0_S4096x128 n j k hk
theorem thirdK_apply (X : QKV) (n : Fin 4096) (j : Fin 128) (k : Fin 384) (hk : k.val = 128 + j.val) : thirdK X (ix2 n j) = X (ix2 n k) :=
  slice2_axis1_apply 128 X slices_S4096x384_o0_128_S4096x128 n j k hk
theorem thirdV_apply (X : QKV) (n : Fin 4096) (j : Fin 128) (k : Fin 384) (hk : k.val = 256 + j.val) : thirdV X (ix2 n j) = X (ix2 n k) :=
  slice2_axis1_apply 256 X slices_S4096x384_o0_256_S4096x128 n j k hk

/-- Column 32·h + d of a third. -/
def col (h : Fin 4) (d : Fin 32) : Fin 128 := ⟨32 * h.val + d.val, by have := h.isLt; have := d.isLt; omega⟩

/-- One head's result, from the thirds, its columns starting at o. -/
def headK (Q K V : Third) (o : ℕ) (hs : S4096x128.Slices ![0, o] S4096x32) : M :=
  outM (rowN (rowE (hd Q o hs))) (ctxM (colN (colE (hd K o hs))) (hd V o hs))

/-- Head h's result is the specification's, of the projected array read by coordinates. -/
theorem headK_apply (X : QKV) (o : ℕ) (hs : S4096x128.Slices ![0, o] S4096x32) (h : Fin 4) (ho : o = 32 * h.val)
    (n : Fin 4096) (e : Fin 32) :
    headK (thirdQ X) (thirdK X) (thirdV X) o hs (ix2 n e) = headOut (fun n f => X (ix2 n f)) h n e := by
  subst ho
  unfold headK headOut
  rw [outM_apply]
  refine Finset.sum_congr rfl fun d _ => ?_
  have hq : rowN (rowE (hd (thirdQ X) (32 * h.val) hs)) (ix2 n d) = qs (fun n f => X (ix2 n f)) h n d := by
    rw [rowN_rowE_apply]
    unfold qs
    refine congrArg (fun r => softmax r d * wScale) (funext fun d' => ?_)
    exact (hd_apply _ _ hs n d' (col h d') rfl).trans (thirdQ_apply X n _ (qIx h d') (Nat.zero_add _).symm)
  have hc : ctxM (colN (colE (hd (thirdK X) (32 * h.val) hs))) (hd (thirdV X) (32 * h.val) hs) (ix2 d e)
      = ctx (fun n f => X (ix2 n f)) h d e := by
    rw [ctxM_apply]
    unfold ctx
    refine Finset.sum_congr rfl fun n' _ => ?_
    have hk : colN (colE (hd (thirdK X) (32 * h.val) hs)) (ix2 n' d) = ks (fun n f => X (ix2 n f)) h n' d := by
      rw [colN_colE_apply]
      unfold ks
      refine congrArg (fun r => softmax r n') (funext fun n'' => ?_)
      exact (hd_apply _ _ hs n'' d (col h d) rfl).trans (thirdK_apply X n'' _ (kIx h d) rfl)
    have hv : hd (thirdV X) (32 * h.val) hs (ix2 n' e) = X (ix2 n' (vIx h e)) :=
      (hd_apply _ _ hs n' e (col h e) rfl).trans (thirdV_apply X n' _ (vIx h e) rfl)
    rw [hk, hv]
  rw [hq, hc]

/-- The four heads' results side by side. -/
def catK (h0 h1 h2 h3 : M) : FVec Ideal S4096x128 .f32 :=
  concatenate S4096x128 1 [⟨S4096x32, h0⟩, ⟨S4096x32, h1⟩, ⟨S4096x32, h2⟩, ⟨S4096x32, h3⟩]
    concatenates_S4096x32_S4096x32_S4096x32_S4096x32_S4096x128_d1

/-- Off the concatenation axis a piece's index and the array's index agree. -/
theorem catK_off (n : Fin 4096) (j : Fin 128) (e : Fin 32) :
    ∀ b : Fin S4096x32.rank, b.cast (rfl : S4096x32.rank = S4096x128.rank) ≠ (1 : Fin S4096x128.rank) →
      ((ix2 n e : S4096x32.Idx) b).val = ((ix2 n j : S4096x128.Idx) (b.cast rfl)).val := fun b hb => by
  match b with
  | ⟨0, _⟩ => rfl
  | ⟨1, _⟩ => exact absurd rfl hb

/-! Column j of the side-by-side array, when it falls in piece k (32·k ≤ j < 32·k + 32), is that piece's column j − 32·k. -/

theorem catK_apply0 (h0 h1 h2 h3 : M) (n : Fin 4096) (j : Fin 128) (e : Fin 32) (hj : 0 + e.val = j.val) :
    catK h0 h1 h2 h3 (ix2 n j) = h0 (ix2 n e) :=
  concatenate_apply_piece (t := S4096x128) (1 : Fin S4096x128.rank)
    ([⟨S4096x32, h0⟩, ⟨S4096x32, h1⟩, ⟨S4096x32, h2⟩, ⟨S4096x32, h3⟩] : List ((s : Shape) × (s.Idx → Ideal .f32)))
    concatenates_S4096x32_S4096x32_S4096x32_S4096x32_S4096x128_d1 (ix2 n j) 0 (by show (0 : ℕ) < 4; omega) S4096x32 h0 rfl rfl 0 rfl (ix2 n e)
    (catK_off n j e) hj

theorem catK_apply1 (h0 h1 h2 h3 : M) (n : Fin 4096) (j : Fin 128) (e : Fin 32) (hj : 32 + e.val = j.val) :
    catK h0 h1 h2 h3 (ix2 n j) = h1 (ix2 n e) :=
  concatenate_apply_piece (t := S4096x128) (1 : Fin S4096x128.rank)
    ([⟨S4096x32, h0⟩, ⟨S4096x32, h1⟩, ⟨S4096x32, h2⟩, ⟨S4096x32, h3⟩] : List ((s : Shape) × (s.Idx → Ideal .f32)))
    concatenates_S4096x32_S4096x32_S4096x32_S4096x32_S4096x128_d1 (ix2 n j) 1 (by show (1 : ℕ) < 4; omega) S4096x32 h1 rfl rfl 32 rfl (ix2 n e)
    (catK_off n j e) hj

theorem catK_apply2 (h0 h1 h2 h3 : M) (n : Fin 4096) (j : Fin 128) (e : Fin 32) (hj : 64 + e.val = j.val) :
    catK h0 h1 h2 h3 (ix2 n j) = h2 (ix2 n e) :=
  concatenate_apply_piece (t := S4096x128) (1 : Fin S4096x128.rank)
    ([⟨S4096x32, h0⟩, ⟨S4096x32, h1⟩, ⟨S4096x32, h2⟩, ⟨S4096x32, h3⟩] : List ((s : Shape) × (s.Idx → Ideal .f32)))
    concatenates_S4096x32_S4096x32_S4096x32_S4096x32_S4096x128_d1 (ix2 n j) 2 (by show (2 : ℕ) < 4; omega) S4096x32 h2 rfl rfl 64 rfl (ix2 n e)
    (catK_off n j e) hj

theorem catK_apply3 (h0 h1 h2 h3 : M) (n : Fin 4096) (j : Fin 128) (e : Fin 32) (hj : 96 + e.val = j.val) :
    catK h0 h1 h2 h3 (ix2 n j) = h3 (ix2 n e) :=
  concatenate_apply_piece (t := S4096x128) (1 : Fin S4096x128.rank)
    ([⟨S4096x32, h0⟩, ⟨S4096x32, h1⟩, ⟨S4096x32, h2⟩, ⟨S4096x32, h3⟩] : List ((s : Shape) × (s.Idx → Ideal .f32)))
    concatenates_S4096x32_S4096x32_S4096x32_S4096x32_S4096x128_d1 (ix2 n j) 3 (by show (3 : ℕ) < 4; omega) S4096x32 h3 rfl rfl 96 rfl (ix2 n e)
    (catK_off n j e) hj

/-- The side-by-side array of the four heads is the specification's `attn`. -/
theorem catK_heads (X : QKV) (n : Fin 4096) (j : Fin 128) :
    catK (headK (thirdQ X) (thirdK X) (thirdV X) 0 slices_S4096x128_o0_0_S4096x32)
         (headK (thirdQ X) (thirdK X) (thirdV X) 32 slices_S4096x128_o0_32_S4096x32)
         (headK (thirdQ X) (thirdK X) (thirdV X) 64 slices_S4096x128_o0_64_S4096x32)
         (headK (thirdQ X) (thirdK X) (thirdV X) 96 slices_S4096x128_o0_96_S4096x32) (ix2 n j)
      = attn (fun n f => X (ix2 n f)) n j := by
  have hj := j.isLt
  unfold attn
  have hcases : j.val / 32 = 0 ∨ j.val / 32 = 1 ∨ j.val / 32 = 2 ∨ j.val / 32 = 3 := by omega
  rcases hcases with h | h | h | h
  · rw [catK_apply0 _ _ _ _ n j ⟨j.val % 32, Nat.mod_lt _ (by decide)⟩ (by show 0 + j.val % 32 = j.val; omega),
      headK_apply X 0 _ 0 rfl]
    exact congrArg (fun hh => headOut _ hh n _) (Fin.ext h.symm)
  · rw [catK_apply1 _ _ _ _ n j ⟨j.val % 32, Nat.mod_lt _ (by decide)⟩ (by show 32 + j.val % 32 = j.val; omega),
      headK_apply X 32 _ 1 rfl]
    exact congrArg (fun hh => headOut _ hh n _) (Fin.ext h.symm)
  · rw [catK_apply2 _ _ _ _ n j ⟨j.val % 32, Nat.mod_lt _ (by decide)⟩ (by show 64 + j.val % 32 = j.val; omega),
      headK_apply X 64 _ 2 rfl]
    exact congrArg (fun hh => headOut _ hh n _) (Fin.ext h.symm)
  · rw [catK_apply3 _ _ _ _ n j ⟨j.val % 32, Nat.mod_lt _ (by decide)⟩ (by show 96 + j.val % 32 = j.val; omega),
      headK_apply X 96 _ 3 rfl]
    exact congrArg (fun hh => headOut _ hh n _) (Fin.ext h.symm)

end Cert.KernelIdeal.Stages

end
-- ==== Proof.KTail.lean ====
/-
  The end of the kernel's body, at the extended reals, read at coordinates: the output projection of the heads' results plus
  the bias row, and the layer normalisation of each token's 256 channels (mean, mean of squared deviations, reciprocal
  square root of that plus epsilon, scale row, shift row) — the specification's `proj` and `lnorm`.
-/
import proofs.«122063_j5257039970858_2_alg».proof.Proof.Gen.KernelIdeal
import proofs.«122063_j5257039970858_2_alg».proof.Proof.LibKeepdims
import proofs.«122063_j5257039970858_2_alg».proof.Proof.Spec
import proofs.«122063_j5257039970858_2_alg».proof.Proof.KHeads
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Stages

open Cert.KernelIdeal Cert.KernelIdeal.Gen Idealize.ShloMosaic Idealize.ShloMosaic.ValueIdx Idealize.ShloMosaic.Keepdims
open Cert.LinAttn

/-- Tokens by channels. -/
abbrev Y := FVec Ideal S4096x256 .f32

/-- A [1, 256] row broadcast over the tokens. -/
def rowB (b : Vec Ideal S1x256 .f32) : Y :=
  broadcastTo S4096x256 (shapeCast S1x256 b shapeCasts_S1x256_S1x256) broadcasts_S1x256_S4096x256

theorem rowB_apply (b : Vec Ideal S1x256 .f32) (n : Fin 4096) (c : Fin 256) : rowB b (ix2 n c) = b (ix2 (0 : Fin 1) c) :=
  (broadcastTo_1b_ab_apply _ broadcasts_S1x256_S4096x256 n c).trans (congrFun (shapeCast_self b shapeCasts_S1x256_S1x256) _)

/-- A [4096, 1] column broadcast over the channels. -/
def colB (v : FVec Ideal S4096x1 .f32) : Y := broadcastTo S4096x256 v broadcasts_S4096x1_S4096x256

theorem colB_apply (v : FVec Ideal S4096x1 .f32) (n : Fin 4096) (c : Fin 256) : colB v (ix2 n c) = v (ix2 n (0 : Fin 1)) :=
  broadcastTo_a1_ab_apply v broadcasts_S4096x1_S4096x256 n c

/-- Each token's mean over the channels, kept as a column. -/
def meanK (y : Y) : FVec Ideal S4096x1 .f32 :=
  divf (shapeCast S4096x1 (multiReduction .add [1] S4096 y 0x00000000#32 reduces_S4096x256_S4096 (.inl rfl) rfl) shapeCasts_S4096_S4096x1)
    (broadcast S4096x1 (Scalar.ofBits .f32 0x43800000#32))

theorem meanK_apply (y : Y) (n : Fin 4096) : meanK y (ix2 n (0 : Fin 1)) = mean256 (fun c => y (ix2 n c)) :=
  congrArg (fun z => Ideal.div z w256)
    ((shapeCast_a_a1_apply _ shapeCasts_S4096_S4096x1 n 0).trans (sumRow_apply y _ reduces_S4096x256_S4096 (.inl rfl) rfl n))

/-- The layer normalisation as the kernel writes it. -/
def lnK (y : Y) (g be : Vec Ideal S1x256 .f32) : Y :=
  addf (mulf (mulf (subf y (colB (meanK y)))
      (colB (rsqrt (addf (meanK (mulf (subf y (colB (meanK y))) (subf y (colB (meanK y))))) (broadcast S4096x1 (Scalar.ofBits .f32 0x3A83126F#32))))))
    (rowB g)) (rowB be)

theorem lnK_apply (y : Y) (g be : Vec Ideal S1x256 .f32) (n : Fin 4096) (c : Fin 256) :
    lnK y g be (ix2 n c) = lnorm (fun c' => y (ix2 n c')) (fun c' => g (ix2 (0 : Fin 1) c')) (fun c' => be (ix2 (0 : Fin 1) c')) c := by
  have hm : ∀ c', colB (meanK y) (ix2 n c') = mean256 (fun c'' => y (ix2 n c'')) := fun c' =>
    (colB_apply _ n c').trans (meanK_apply y n)
  have hv : meanK (mulf (subf y (colB (meanK y))) (subf y (colB (meanK y)))) (ix2 n (0 : Fin 1))
      = mean256 (fun c' => (y (ix2 n c') - mean256 (fun c'' => y (ix2 n c''))) * (y (ix2 n c') - mean256 (fun c'' => y (ix2 n c'')))) := by
    rw [meanK_apply]
    refine congrArg mean256 (funext fun c' => ?_)
    show (y (ix2 n c') - colB (meanK y) (ix2 n c')) * (y (ix2 n c') - colB (meanK y) (ix2 n c')) = _
    rw [hm]
  unfold lnorm
  show (y (ix2 n c) - colB (meanK y) (ix2 n c))
      * colB (rsqrt (addf (meanK (mulf (subf y (colB (meanK y))) (subf y (colB (meanK y))))) (broadcast S4096x1 (Scalar.ofBits .f32 0x3A83126F#32)))) (ix2 n c)
      * rowB g (ix2 n c) + rowB be (ix2 n c) = _
  rw [hm, colB_apply, rowB_apply, rowB_apply]
  show _ * Ideal.rsqrt (meanK (mulf (subf y (colB (meanK y))) (subf y (colB (meanK y)))) (ix2 n (0 : Fin 1)) + wEps) * _ + _ = _
  rw [hv]

/-- The body's last stretch: project the heads' results, add the bias row, normalise. -/
def tailK (h0 h1 h2 h3 : M) (wo : Vec Ideal S128x256 .f32) (bo g be : Vec Ideal S1x256 .f32) : Y :=
  lnK (addf (projM (catK h0 h1 h2 h3) wo) (rowB bo)) g be

/-- With the four heads in place, the last stretch is the specification's projection and normalisation. -/
theorem tailK_heads (X : QKV) (wo : Vec Ideal S128x256 .f32) (bo g be : Vec Ideal S1x256 .f32) (n : Fin 4096) (c : Fin 256) :
    tailK (headK (thirdQ X) (thirdK X) (thirdV X) 0 slices_S4096x128_o0_0_S4096x32)
          (headK (thirdQ X) (thirdK X) (thirdV X) 32 slices_S4096x128_o0_32_S4096x32)
          (headK (thirdQ X) (thirdK X) (thirdV X) 64 slices_S4096x128_o0_64_S4096x32)
          (headK (thirdQ X) (thirdK X) (thirdV X) 96 slices_S4096x128_o0_96_S4096x32) wo bo g be (ix2 n c)
      = lnorm (fun c' => proj (fun n f => X (ix2 n f)) (fun j c'' => wo (ix2 j c'')) (fun c'' => bo (ix2 (0 : Fin 1) c'')) n c')
          (fun c' => g (ix2 (0 : Fin 1) c')) (fun c' => be (ix2 (0 : Fin 1) c')) c := by
  unfold tailK
  rw [lnK_apply]
  refine congrArg (fun yy => lnorm yy _ _ c) (funext fun c' => ?_)
  show projM _ wo (ix2 n c') + rowB bo (ix2 n c') = _
  rw [projM_apply, rowB_apply]
  unfold proj
  exact congrArg (· + bo (ix2 (0 : Fin 1) c')) (Finset.sum_congr rfl fun j _ => congrArg (· * wo (ix2 j c')) (catK_heads X n j))

end Cert.KernelIdeal.Stages

end
-- ==== Proof.KBody.lean ====
/-
  What the kernel's body leaves in the output block, at the extended reals: the body's one store writes, through the
  whole block, the normalised projection of the four heads' results re-laid from tokens × channels to
  [1, 64, 64, 256] (token 64·p + q is pixel (p, q)). So the block at (·, p, q, c) is the specification's `result` of
  the image the input block holds, at pixel (p, q), channel c.
-/
import proofs.«122063_j5257039970858_2_alg».proof.Proof.Gen.KernelIdeal
import proofs.«122063_j5257039970858_2_alg».proof.Proof.LibKeepdims
import proofs.«122063_j5257039970858_2_alg».proof.Proof.Spec
import proofs.«122063_j5257039970858_2_alg».proof.Proof.Gen.KernelIdeal.Frame
import proofs.«122063_j5257039970858_2_alg».proof.Proof.KTail
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Body

open Cert.KernelIdeal Cert.KernelIdeal.Gen Cert.KernelIdeal.Stages Idealize.ShloMosaic Idealize.ShloMosaic.ValueIdx
open Cert.LinAttn

theorem zeros4 : (![0, 0, 0, 0] : Fin 4 → Nat) = fun _ => 0 := funext fun a => by fin_cases a <;> rfl
theorem zeros2 : (![0, 0] : Fin 2 → Nat) = fun _ => 0 := funext fun a => by fin_cases a <;> rfl

/-! ## The body's values are the stages -/

/-- Head 0's result. -/
theorem head0_eq (x0 : Vec Ideal S1x64x64x256 .f32) (x1 : Vec Ideal S256x384 .f32) : k0_pay8 (k0_pay6 x0 x1) (k0_pay7 x0 x1) = (headK (thirdQ (k0_pay2 x0 x1)) (thirdK (k0_pay2 x0 x1)) (thirdV (k0_pay2 x0 x1)) 0 slices_S4096x128_o0_0_S4096x32) := rfl
/-- Head 1's result. -/
theorem head1_eq (x0 : Vec Ideal S1x64x64x256 .f32) (x1 : Vec Ideal S256x384 .f32) : k0_pay9 (k0_pay3 x0 x1) (k0_pay4 x0 x1) (k0_pay5 x0 x1) = (headK (thirdQ (k0_pay2 x0 x1)) (thirdK (k0_pay2 x0 x1)) (thirdV (k0_pay2 x0 x1)) 32 slices_S4096x128_o0_32_S4096x32) := rfl
/-- Head 2's result. -/
theorem head2_eq (x0 : Vec Ideal S1x64x64x256 .f32) (x1 : Vec Ideal S256x384 .f32) :
    k0_pay13 (k0_pay10 (k0_pay4 x0 x1)) (k0_pay11 (k0_pay5 x0 x1)) (k0_pay12 (k0_pay3 x0 x1)) = (headK (thirdQ (k0_pay2 x0 x1)) (thirdK (k0_pay2 x0 x1)) (thirdV (k0_pay2 x0 x1)) 64 slices_S4096x128_o0_64_S4096x32) := rfl
/-- The last stretch: head 3's result is finished there, then the projection and the normalisation. -/
theorem tail_eq (x0 : Vec Ideal S1x64x64x256 .f32) (x1 : Vec Ideal S256x384 .f32) (h0 h1 h2 : M) (x2 : Vec Ideal S128x256 .f32) (x3 x4 x5 : Vec Ideal S1x256 .f32) :
    k0_pay17 h0 h1 h2 (k0_pay14 (k0_pay5 x0 x1)) (k0_pay15 (k0_pay3 x0 x1)) (k0_pay16 (k0_pay4 x0 x1)) x2 x3 x4 x5
      = tailK h0 h1 h2 (headK (thirdQ (k0_pay2 x0 x1)) (thirdK (k0_pay2 x0 x1)) (thirdV (k0_pay2 x0 x1)) 96 slices_S4096x128_o0_96_S4096x32) x2 x3 x4 x5 := rfl

/-- The store's payload re-lays tokens × channels as [1, 64, 64, 256]. -/
theorem pay1_apply (v : FVec Ideal S4096x256 .f32) (u : Fin 1) (p q : Fin 64) (ch : Fin 256) :
    k0_pay1 v (ix4 u p q ch) = v (ix2 (tok p q) ch) := by
  have hu := u.isLt
  unfold k0_pay1
  refine (shapeCast_apply _ _ (ix4 u p q ch) (ix3 p q ch) ?_).trans ?_
  · rw [Shape.rowMajor_val_three, Shape.rowMajor_val_four]
    show (p.val * 64 + q.val) * 256 + ch.val = ((u.val * 64 + p.val) * 64 + q.val) * 256 + ch.val
    omega
  · refine shapeCast_apply _ _ (ix3 p q ch) (ix2 (tok p q) ch) ?_
    rw [Shape.rowMajor_val_two, Shape.rowMajor_val_three]
    rfl

/-- The output block, from the input blocks, at (u, p, q, c). -/
theorem out_apply (x0 : Vec Ideal S1x64x64x256 .f32) (x1 : Vec Ideal S256x384 .f32) (x2 : Vec Ideal S128x256 .f32) (x3 x4 x5 : Vec Ideal S1x256 .f32)
    (u : Fin 1) (p q : Fin 64) (ch : Fin 256) :
    out0_6 x0 x1 x2 x3 x4 x5 (ix4 u p q ch)
      = lnorm (fun c' => proj (fun n f => k0_pay2 x0 x1 (ix2 n f)) (fun j c'' => x2 (ix2 j c'')) (fun c'' => x3 (ix2 (0 : Fin 1) c'')) (tok p q) c')
          (fun c' => x4 (ix2 (0 : Fin 1) c')) (fun c' => x5 (ix2 (0 : Fin 1) c')) ch := by
  unfold out0_6
  rw [View.canon_unit_zero zeros4]
  simp only [View.ld_unit_zero (S := S1x64x64x256) zeros4, View.ld_unit_zero (S := S256x384) zeros2,
    View.ld_unit_zero (S := S128x256) zeros2, View.ld_unit_zero (S := S1x256) zeros2]
  rw [pay1_apply, head0_eq, head1_eq, head2_eq, tail_eq]
  exact tailK_heads (k0_pay2 x0 x1) x2 x3 x4 x5 (tok p q) ch

/-- The output block is the specification's result of the image in the input block: `A0` is the whole argument array and
    `t` the image the block holds; `B3`, `B4`, `B5` are the bias, scale and shift vectors behind the [1, 256] rows. -/
theorem out_result (x0 : Vec Ideal S1x64x64x256 .f32) (x1 : Vec Ideal S256x384 .f32) (x2 : Vec Ideal S128x256 .f32) (x3 x4 x5 : Vec Ideal S1x256 .f32)
    (A0 : S16x64x64x256.Idx → EReal) (t : Fin 16) (h0 : ∀ p q ch, x0 (ix4 (0 : Fin 1) p q ch) = A0 (ix4 t p q ch))
    (B3 B4 B5 : S256.Idx → EReal) (h3 : ∀ ch, x3 (ix2 (0 : Fin 1) ch) = B3 (ix1 ch)) (h4 : ∀ ch, x4 (ix2 (0 : Fin 1) ch) = B4 (ix1 ch))
    (h5 : ∀ ch, x5 (ix2 (0 : Fin 1) ch) = B5 (ix1 ch)) (y : S1x64x64x256.Idx) :
    out0_6 x0 x1 x2 x3 x4 x5 y
      = result (fun b p q ch => A0 (ix4 b p q ch)) (fun a f => x1 (ix2 a f)) (fun j ch => x2 (ix2 j ch))
          (fun ch => B3 (ix1 ch)) (fun ch => B4 (ix1 ch)) (fun ch => B5 (ix1 ch)) t (y 1) (y 2) (y 3) := by
  obtain ⟨u, p, q, ch, rfl⟩ : ∃ (u : Fin 1) (p q : Fin 64) (ch : Fin 256), y = ix4 u p q ch := ⟨y 0, y 1, y 2, y 3, eq_ix4 y⟩
  rw [out_apply]
  unfold result
  have hq : (fun n f => k0_pay2 x0 x1 (ix2 n f)) = qkvOf (fun b p q ch => A0 (ix4 b p q ch)) (fun a f => x1 (ix2 a f)) t := by
    funext n f
    rw [pay2_apply]
    unfold qkvOf
    exact Finset.sum_congr rfl fun a _ => by rw [h0]
  have e3 : (fun c'' => x3 (ix2 (0 : Fin 1) c'')) = fun ch => B3 (ix1 ch) := funext h3
  have e4 : (fun c' => x4 (ix2 (0 : Fin 1) c')) = fun ch => B4 (ix1 ch) := funext h4
  have e5 : (fun c' => x5 (ix2 (0 : Fin 1) c')) = fun ch => B5 (ix1 ch) := funext h5
  rw [hq, e3, e4, e5]

end Cert.KernelIdeal.Body

end
-- ==== Proof.KBlocks.lean ====
/-
  The kernel's blocks read at explicit coordinates: each window's block at a grid point is the launched argument
  array (for the three channel vectors, after the host has laid each out as one row) at the point's own image, and
  the result window's blocks, one image each, cover the result array.
-/
import proofs.«122063_j5257039970858_2_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Blocks

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ) (c : Dev nD) (t : Fin cfg0.N)

/-- The grid point as an image number: the grid has 16 points. -/
abbrev tb : Fin 16 := Fin.cast N_0 t

/-- The printed index maps, decided over the grid: the image block and the result block sit at the point's own
    number on the first axis and at 0 on the others; every other block sits at 0. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 4) = t.val ∧ win0_6.index t (1 : Fin 4) = 0 ∧ win0_6.index t (2 : Fin 4) = 0 ∧ win0_6.index t (3 : Fin 4) = 0 :=
  (by decide +kernel : ∀ t : Fin grid0.N, _)

/-! ## The image block: image t of the launched array -/

theorem blk0_apply (p q : Fin 64) (ch : Fin 256) :
    iblk m c 0 t (ix4 (0 : Fin 1) p q ch) = m ((c : Thread nD τ).loc main_arg0) (ix4 (tb t) p q ch) := by
  show V m c main_arg0 (((cfg0.win 0).blk t).view.emb (ix4 (0 : Fin 1) p q ch)) = _
  rw [V_main_arg0]
  refine congrArg _ ?_
  obtain ⟨e0, e1, e2, e3, -⟩ := idx_facts t
  funext e; apply Fin.ext
  match e with
  | ⟨0, _⟩ => show win0_0.index t (0 : Fin 4) * 1 + 1 * (0 : Fin 1).val = t.val; rw [e0]; show t.val * 1 + 1 * 0 = t.val; omega
  | ⟨1, _⟩ => show win0_0.index t (1 : Fin 4) * 64 + 1 * p.val = p.val; omega
  | ⟨2, _⟩ => show win0_0.index t (2 : Fin 4) * 64 + 1 * q.val = q.val; omega
  | ⟨3, _⟩ => show win0_0.index t (3 : Fin 4) * 256 + 1 * ch.val = ch.val; omega

/-! ## The two weight arrays: whole, as launched -/

theorem blk1_apply (a : Fin 256) (f : Fin 384) :
    iblk m c 1 t (ix2 a f) = m ((c : Thread nD τ).loc main_arg1) (ix2 a f) := by
  show V m c main_arg1 (((cfg0.win 1).blk t).view.emb (ix2 a f)) = _
  rw [V_main_arg1]
  refine congrArg _ ?_
  obtain ⟨-, -, -, -, e0, e1, -⟩ := idx_facts t
  funext e; apply Fin.ext
  match e with
  | ⟨0, _⟩ => show win0_1.index t (0 : Fin 2) * 256 + 1 * a.val = a.val; omega
  | ⟨1, _⟩ => show win0_1.index t (1 : Fin 2) * 384 + 1 * f.val = f.val; omega

theorem blk2_apply (j : Fin 128) (ch : Fin 256) :
    iblk m c 2 t (ix2 j ch) = m ((c : Thread nD τ).loc main_arg2) (ix2 j ch) := by
  show V m c main_arg2 (((cfg0.win 2).blk t).view.emb (ix2 j ch)) = _
  rw [V_main_arg2]
  refine congrArg _ ?_
  obtain ⟨-, -, -, -, -, -, e0, e1, -⟩ := idx_facts t
  funext e; apply Fin.ext
  match e with
  | ⟨0, _⟩ => show win0_2.index t (0 : Fin 2) * 128 + 1 * j.val = j.val; omega
  | ⟨1, _⟩ => show win0_2.index t (1 : Fin 2) * 256 + 1 * ch.val = ch.val; omega

/-! ## The three channel vectors: the host lays each out as one row before the region -/

theorem V_main_v0 : (V m c main_v0 : S1x256.Idx → EReal)
    = shapeCast S1x256 (m ((c : Thread nD τ).loc main_arg3)) shapeCasts_S256_S1x256 := by
  dsimp only [Gen.V, Gen.hostOps0]; after_results; rfl

theorem V_main_v1 : (V m c main_v1 : S1x256.Idx → EReal)
    = shapeCast S1x256 (m ((c : Thread nD τ).loc main_arg4)) shapeCasts_S256_S1x256 := by
  dsimp only [Gen.V, Gen.hostOps0]; after_results; rfl

theorem V_main_v2 : (V m c main_v2 : S1x256.Idx → EReal)
    = shapeCast S1x256 (m ((c : Thread nD τ).loc main_arg5)) shapeCasts_S256_S1x256 := by
  dsimp only [Gen.V, Gen.hostOps0]; after_results; rfl

theorem emb3 (ch : Fin 256) : ((cfg0.win 3).blk t).view.emb (ix2 (0 : Fin 1) ch) = (ix2 (0 : Fin 1) ch : S1x256.Idx) := by
  obtain ⟨-, -, -, -, -, -, -, -, e0, e1, -⟩ := idx_facts t
  funext e; apply Fin.ext
  match e with
  | ⟨0, _⟩ => show win0_3.index t (0 : Fin 2) * 1 + 1 * (0 : Fin 1).val = (0 : Fin 1).val; omega
  | ⟨1, _⟩ => show win0_3.index t (1 : Fin 2) * 256 + 1 * ch.val = ch.val; omega

theorem emb4 (ch : Fin 256) : ((cfg0.win 4).blk t).view.emb (ix2 (0 : Fin 1) ch) = (ix2 (0 : Fin 1) ch : S1x256.Idx) := by
  obtain ⟨-, -, -, -, -, -, -, -, -, -, e0, e1, -⟩ := idx_facts t
  funext e; apply Fin.ext
  match e with
  | ⟨0, _⟩ => show win0_4.index t (0 : Fin 2) * 1 + 1 * (0 : Fin 1).val = (0 : Fin 1).val; omega
  | ⟨1, _⟩ => show win0_4.index t (1 : Fin 2) * 256 + 1 * ch.val = ch.val; omega

theorem emb5 (ch : Fin 256) : ((cfg0.win 5).blk t).view.emb (ix2 (0 : Fin 1) ch) = (ix2 (0 : Fin 1) ch : S1x256.Idx) := by
  obtain ⟨-, -, -, -, -, -, -, -, -, -, -, -, e0, e1, -⟩ := idx_facts t
  funext e; apply Fin.ext
  match e with
  | ⟨0, _⟩ => show win0_5.index t (0 : Fin 2) * 1 + 1 * (0 : Fin 1).val = (0 : Fin 1).val; omega
  | ⟨1, _⟩ => show win0_5.index t (1 : Fin 2) * 256 + 1 * ch.val = ch.val; omega

theorem blk3_apply (ch : Fin 256) :
    iblk m c 3 t (ix2 (0 : Fin 1) ch) = m ((c : Thread nD τ).loc main_arg3) (ix1 ch) := by
  show (V m c main_v0 : S1x256.Idx → EReal) (((cfg0.win 3).blk t).view.emb (ix2 (0 : Fin 1) ch)) = _
  rw [emb3, V_main_v0]
  exact shapeCast_a_1a_apply _ shapeCasts_S256_S1x256 (0 : Fin 1) ch

theorem blk4_apply (ch : Fin 256) :
    iblk m c 4 t (ix2 (0 : Fin 1) ch) = m ((c : Thread nD τ).loc main_arg4) (ix1 ch) := by
  show (V m c main_v1 : S1x256.Idx → EReal) (((cfg0.win 4).blk t).view.emb (ix2 (0 : Fin 1) ch)) = _
  rw [emb4, V_main_v1]
  exact shapeCast_a_1a_apply _ shapeCasts_S256_S1x256 (0 : Fin 1) ch

theorem blk5_apply (ch : Fin 256) :
    iblk m c 5 t (ix2 (0 : Fin 1) ch) = m ((c : Thread nD τ).loc main_arg5) (ix1 ch) := by
  show (V m c main_v2 : S1x256.Idx → EReal) (((cfg0.win 5).blk t).view.emb (ix2 (0 : Fin 1) ch)) = _
  rw [emb5, V_main_v2]
  exact shapeCast_a_1a_apply _ shapeCasts_S256_S1x256 (0 : Fin 1) ch

/-! ## The result block: image t of the result array, and the blocks cover it -/

theorem emb6 (y : S1x64x64x256.Idx) :
    ((cfg0.win 6).blk t).view.emb y = (ix4 (tb t) (y 1) (y 2) (y 3) : S16x64x64x256.Idx) := by
  obtain ⟨-, -, -, -, -, -, -, -, -, -, -, -, -, -, e0, e1, e2, e3⟩ := idx_facts t
  have h0 : (y 0).val < 1 := (y 0).isLt
  funext e; apply Fin.ext
  match e with
  | ⟨0, _⟩ => show win0_6.index t (0 : Fin 4) * 1 + 1 * (y 0).val = t.val; omega
  | ⟨1, _⟩ => show win0_6.index t (1 : Fin 4) * 64 + 1 * (y 1).val = (y 1).val; omega
  | ⟨2, _⟩ => show win0_6.index t (2 : Fin 4) * 64 + 1 * (y 2).val = (y 2).val; omega
  | ⟨3, _⟩ => show win0_6.index t (3 : Fin 4) * 256 + 1 * (y 3).val = (y 3).val; omega

/-- An index of the result array is in point t's block iff each coordinate is in the block's range on its axis. -/
theorem mem_blk6 (i : S16x64x64x256.Idx) :
    i ∈ ((cfg0.win 6).blk t).view.set ↔ ∀ a : Fin 4, win0_6.index t a * S1x64x64x256.size a ≤ (i a).val ∧ (i a).val < win0_6.index t a * S1x64x64x256.size a + S1x64x64x256.size a := by
  show i ∈ ((View.whole main_v3).slice (win0_6.rect t)).set ↔ _
  rw [View.set_slice_whole, Rect.mem_set_unit]
  exact Iff.rfl

/-- Every index of the result array is in the block of the point numbered by its image, and that point writes back. -/
theorem cover6 : ∀ i : S16x64x64x256.Idx, ∃ t : Fin cfg0.N, (cfg0.win 6).flush t = true ∧ i ∈ ((cfg0.win 6).blk t).view.set := by
  intro i
  have hi0 : (i 0).val < 16 := (i 0).isLt
  have hi1 : (i 1).val < 64 := (i 1).isLt
  have hi2 : (i 2).val < 64 := (i 2).isLt
  have hi3 : (i 3).val < 256 := (i 3).isLt
  refine ⟨Fin.cast N_0.symm ⟨(i 0).val, hi0⟩, flush0_6 _, ?_⟩
  rw [mem_blk6]
  obtain ⟨-, -, -, -, -, -, -, -, -, -, -, -, -, -, e0, e1, e2, e3⟩ := idx_facts (Fin.cast N_0.symm ⟨(i 0).val, hi0⟩)
  have e0' : win0_6.index (Fin.cast N_0.symm ⟨(i 0).val, hi0⟩) (0 : Fin 4) = (i 0).val := e0
  intro a
  match a with
  | ⟨0, _⟩ => show win0_6.index _ (0 : Fin 4) * 1 ≤ (i 0).val ∧ (i 0).val < win0_6.index _ (0 : Fin 4) * 1 + 1; omega
  | ⟨1, _⟩ => show win0_6.index _ (1 : Fin 4) * 64 ≤ (i 1).val ∧ (i 1).val < win0_6.index _ (1 : Fin 4) * 64 + 64; omega
  | ⟨2, _⟩ => show win0_6.index _ (2 : Fin 4) * 64 ≤ (i 2).val ∧ (i 2).val < win0_6.index _ (2 : Fin 4) * 64 + 64; omega
  | ⟨3, _⟩ => show win0_6.index _ (3 : Fin 4) * 256 ≤ (i 3).val ∧ (i 3).val < win0_6.index _ (3 : Fin 4) * 256 + 256; omega

end Cert.KernelIdeal.Blocks

end
-- ==== Proof.SpecArray.lean ====
/-
  The whole result array [16, 64, 64, 256] as ONE function of the six argument arrays, index by index: at (b, p, q, c) the
  specification's `result` of the arguments read by coordinates.
-/
import proofs.«122063_j5257039970858_2_alg».proof.Proof.Spec
import Idealize.ShloMosaic.Lib.ValueIdx

noncomputable section

namespace Cert.LinAttn

open Idealize.ShloMosaic Idealize.ShloMosaic.ValueIdx

/-- The result array of the attention block, from the image batch, the two weight matrices, the bias, the scale and the shift. -/
def wholeArray (a0 : (⟨4, ![16, 64, 64, 256]⟩ : Shape).Idx → EReal) (a1 : (⟨2, ![256, 384]⟩ : Shape).Idx → EReal)
    (a2 : (⟨2, ![128, 256]⟩ : Shape).Idx → EReal) (a3 a4 a5 : (⟨1, ![256]⟩ : Shape).Idx → EReal) :
    (⟨4, ![16, 64, 64, 256]⟩ : Shape).Idx → EReal := fun i =>
  result (fun b p q ch => a0 (ix4 b p q ch)) (fun a f => a1 (ix2 a f)) (fun j ch => a2 (ix2 j ch))
    (fun ch => a3 (ix1 ch)) (fun ch => a4 (ix1 ch)) (fun ch => a5 (ix1 ch)) (i 0) (i 1) (i 2) (i 3)

end Cert.LinAttn

end
-- ==== Proof.KWhole.lean ====
/-
  The kernel's output array after its run, at the extended reals. Grid point t holds image t: its input block is image t
  of the batch, the weight matrices are whole at every point, the bias, scale and shift rows are the [256] vectors read
  as [1, 256]; the point writes back the output block, which is the specification's result of image t. The sixteen
  blocks tile the [16, 64, 64, 256] array, so the array ends holding the specification's whole array of the six
  arguments; the arguments end unchanged.
-/
import proofs.«122063_j5257039970858_2_alg».proof.Proof.Gen.KernelIdeal.Frame
import proofs.«122063_j5257039970858_2_alg».proof.Proof.KBody
import proofs.«122063_j5257039970858_2_alg».proof.Proof.KBlocks
import proofs.«122063_j5257039970858_2_alg».proof.Proof.SpecArray
import Idealize.ShloMosaic.Lib.Pipeline.Value

noncomputable section

namespace Cert.KernelIdeal.Whole

open Cert.KernelIdeal Cert.KernelIdeal.Gen Cert.KernelIdeal.Body Cert.KernelIdeal.Blocks
open Idealize.ShloMosaic Idealize.ShloMosaic.TcCoe Idealize.SL.Sem Idealize.ShloMosaic.ValueIdx Cert.LinAttn
open Idealize.ShloMosaic.Pipeline (Dat)

variable (m : (ℓ : Loc nD τ sig) → Buf (Elt Ideal) ℓ) (ρ : Dev nD → PrngReg)

/-- What the output array ends holding on device c. -/
abbrev final (c : Dev nD) : S16x64x64x256.Idx → EReal :=
  wholeArray (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- What point t writes back is block t of the whole array. -/
theorem flushed_eq (c : Dev nD) (t : Fin cfg0.N) :
    (dats m 0 c).flushed 6 t = ((cfg0.win 6).blk t).view.read (Elt Ideal) (final m c) := by
  show (cfg0.win 6).cut (grid0.coords t) ((dats m 0 c).after 6 t) = _
  rw [after0_6]
  funext y
  show out0_6 (iblk m c 0 t) (iblk m c 1 t) (iblk m c 2 t) (iblk m c 3 t) (iblk m c 4 t) (iblk m c 5 t) y
    = final m c (((cfg0.win 6).blk t).view.emb y)
  rw [emb6 t y]
  refine (out_result (iblk m c 0 t) (iblk m c 1 t) (iblk m c 2 t) (iblk m c 3 t) (iblk m c 4 t) (iblk m c 5 t)
    (m ((c : Thread nD τ).loc main_arg0)) (tb t) (blk0_apply m c t) (m ((c : Thread nD τ).loc main_arg3)) (m ((c : Thread nD τ).loc main_arg4)) (m ((c : Thread nD τ).loc main_arg5))
    (blk3_apply m c t) (blk4_apply m c t) (blk5_apply m c t) y).trans ?_
  have e1 : (fun a f => iblk m c 1 t (ix2 a f)) = fun a f => (m ((c : Thread nD τ).loc main_arg1)) (ix2 a f) := funext fun a => funext fun f => blk1_apply m c t a f
  have e2 : (fun j ch => iblk m c 2 t (ix2 j ch)) = fun j ch => (m ((c : Thread nD τ).loc main_arg2)) (ix2 j ch) := funext fun j => funext fun ch => blk2_apply m c t j ch
  rw [e1, e2]
  rfl

/-- After the run the output array is the specification's whole array. -/
theorem whole (c : Dev nD) : (dats m 0 c).arrAt 6 cfg0.N = final m c :=
  (dats m 0 c).arrAt_eq_of_cover 6 (final m c) (fun t _ => flushed_eq m c t) cover6

/-- Every weakly fair execution of the kernel's program terminates with the output array at the specification's whole
    array of the arguments, and the arguments unchanged. -/
theorem run : θ_run defs (onTc (τ := τ) (main (F := Ideal))) ⟨m, fun _ => 0, ρ⟩ fun r => ∀ c : Dev nD,
      r.2.mem ((c : Thread nD τ).loc main_v3) = final m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h c).1 6).trans (whole m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩)
    (run_main m ρ)

end Cert.KernelIdeal.Whole

end
-- ==== Proof.LibHostReduce4.lean ====
/-
  General lemmas, over the library only: the host's one-operand `stablehlo.reduce` with a `maximum` body over ONE axis
  of a rank-4 float array, at the ideal values, read at an index given by coordinates — the fold of `max` from the
  initial value over that axis's coordinates. Stated for the last axis (`hostMax4_axis3_apply`: an array [a, b, c, d]
  reduced to [a, b, c]) and for the one before it (`hostMax4_axis2_apply`: reduced to [a, b, d]), with the index the
  reduction inserts named by coordinates (`lift4_axis3`, `lift4_axis2`). jax's `softmax` over either of a batched
  matrix's two axes meets exactly these.
-/
import Idealize.ShloMosaic.PureOps.Ideal.Laws
import Idealize.ShloMosaic.Lib.ValueIdx

noncomputable section

namespace Idealize.ShloMosaic.HostReduce4

open Idealize.ShloMosaic Idealize.ShloMosaic.ValueIdx

variable {a b c d : ℕ}

/-- Reducing [a, b, c, d] along its last axis: the reduced index (i, j, k) with coordinate `n` put back is (i, j, k, n). -/
theorem lift4_axis3 (h : (⟨4, ![a, b, c, d]⟩ : Shape).Reduces [3] (⟨3, ![a, b, c]⟩ : Shape)) (i : Fin a) (j : Fin b) (k : Fin c)
    (n : Fin ((⟨4, ![a, b, c, d]⟩ : Shape).size 3)) : h.lift (ix3 i j k) n = ix4 i j k (⟨n.val, n.isLt⟩ : Fin d) := by
  funext e; apply Fin.ext
  fin_cases e <;> rfl

/-- Reducing [a, b, c, d] along axis 2: the reduced index (i, j, l) with coordinate `n` put back is (i, j, n, l). -/
theorem lift4_axis2 (h : (⟨4, ![a, b, c, d]⟩ : Shape).Reduces [2] (⟨3, ![a, b, d]⟩ : Shape)) (i : Fin a) (j : Fin b) (l : Fin d)
    (n : Fin ((⟨4, ![a, b, c, d]⟩ : Shape).size 2)) : h.lift (ix3 i j l) n = ix4 i j (⟨n.val, n.isLt⟩ : Fin c) l := by
  funext e; apply Fin.ext
  fin_cases e <;> rfl

variable {φ : FTy} {u : Shape}

/-- The host's maximum over the last axis, at (i, j, k): the fold of `max` from the initial value over the entries (i, j, k, ·). -/
theorem hostMax4_axis3_apply (y : FVec Ideal ⟨4, ![a, b, c, d]⟩ φ) (init : u.Idx → Ideal φ)
    (h' : (⟨4, ![a, b, c, d]⟩ : Shape).ReducesTo [3] (⟨3, ![a, b, c]⟩ : Shape))
    (h : (⟨4, ![a, b, c, d]⟩ : Shape).Reduces [3] (⟨3, ![a, b, c]⟩ : Shape)) (hu : 0 < u.numel) (i : Fin a) (j : Fin b) (k : Fin c) :
    Host.reduce FloatOps.maximumf y init h' hu (ix3 i j k)
      = (Finset.univ : Finset (Fin d)).fold max (init (Shape.Idx.first hu)) (fun n => y (ix4 i j k n)) := by
  refine (Host.reduce_eq_fold_single FloatOps.maximumf y init h' h hu (ix3 i j k)).trans ?_
  show (Finset.univ : Finset (Fin d)).fold max (init (Shape.Idx.first hu)) (y ∘ h.lift (ix3 i j k)) = _
  exact congrArg (fun f => Finset.fold max (init (Shape.Idx.first hu)) f (Finset.univ : Finset (Fin d)))
    (funext fun n => congrArg y (lift4_axis3 h i j k n))

/-- The host's maximum over axis 2, at (i, j, l): the fold of `max` from the initial value over the entries (i, j, ·, l). -/
theorem hostMax4_axis2_apply (y : FVec Ideal ⟨4, ![a, b, c, d]⟩ φ) (init : u.Idx → Ideal φ)
    (h' : (⟨4, ![a, b, c, d]⟩ : Shape).ReducesTo [2] (⟨3, ![a, b, d]⟩ : Shape))
    (h : (⟨4, ![a, b, c, d]⟩ : Shape).Reduces [2] (⟨3, ![a, b, d]⟩ : Shape)) (hu : 0 < u.numel) (i : Fin a) (j : Fin b) (l : Fin d) :
    Host.reduce FloatOps.maximumf y init h' hu (ix3 i j l)
      = (Finset.univ : Finset (Fin c)).fold max (init (Shape.Idx.first hu)) (fun n => y (ix4 i j n l)) := by
  refine (Host.reduce_eq_fold_single FloatOps.maximumf y init h' h hu (ix3 i j l)).trans ?_
  show (Finset.univ : Finset (Fin c)).fold max (init (Shape.Idx.first hu)) (y ∘ h.lift (ix3 i j l)) = _
  exact congrArg (fun f => Finset.fold max (init (Shape.Idx.first hu)) f (Finset.univ : Finset (Fin c)))
    (funext fun n => congrArg y (lift4_axis2 h i j l n))

end Idealize.ShloMosaic.HostReduce4

end
-- ==== Proof.RefValue.lean ====
/-
  The reference program's result, read at an index by coordinates, is the common function of Spec.lean: one lemma per
  stage of the reference (the projection, the three rearrangements into heads, the two soft-maxes, the context, the
  heads' results, the rearrangement back to pixels, the output projection, the layer normalisation), each stated at
  explicit coordinates and read off the generated per-operation lemmas.
-/
import proofs.«122063_j5257039970858_2_alg».proof.Proof.Gen.ReferenceIdeal.Read
import proofs.«122063_j5257039970858_2_alg».proof.Proof.Spec
import proofs.«122063_j5257039970858_2_alg».proof.Proof.LibHostReduce4

noncomputable section

namespace Cert.ReferenceIdeal.RefValue

open Cert.ReferenceIdeal Cert.ReferenceIdeal.Gen Idealize.ShloMosaic Idealize.ShloMosaic.ValueIdx Cert.LinAttn

/-- The input image array, the three weight arrays and the three channel vectors, as coordinate functions. -/
abbrev A0 := (⟨S16x64x64x256, .f32⟩ : BufTy).Contents (Elt Ideal)
abbrev A1 := (⟨S256x384, .f32⟩ : BufTy).Contents (Elt Ideal)
abbrev A2 := (⟨S128x256, .f32⟩ : BufTy).Contents (Elt Ideal)
abbrev A3 := (⟨S256, .f32⟩ : BufTy).Contents (Elt Ideal)

abbrev xF (x0 : A0) : Fin 16 → Fin 64 → Fin 64 → Fin 256 → EReal := fun b p q c => x0 (ix4 b p q c)
abbrev wF (x1 : A1) : Fin 256 → Fin 384 → EReal := fun c f => x1 (ix2 c f)

/-- The token's row and column. -/
abbrev tokP (n : Fin 4096) : Fin 64 := ⟨n.val / 64, by have := n.isLt; omega⟩
abbrev tokQ (n : Fin 4096) : Fin 64 := ⟨n.val % 64, Nat.mod_lt _ (by decide)⟩

/-- The first product at (b, p, q, f): the sum over the channels. -/
theorem v0_at (x0 : A0) (x1 : A1) (b : Fin 16) (p q : Fin 64) (f : Fin 384) :
    Read.val_main_v0 (F := Ideal) x0 x1 (ix4 b p q f) = ∑ c : Fin 256, x0 (ix4 b p q c) * x1 (ix2 c f) := by
  rw [Read.val_main_v0_apply]
  refine Finset.sum_congr rfl fun k _ => ?_
  have e1 : Read.lidx_main_v0 (ix4 b p q f) k = ix4 b p q k := by
    funext a
    match a with
    | ⟨0, _⟩ => rfl
    | ⟨1, _⟩ => rfl
    | ⟨2, _⟩ => rfl
    | ⟨3, _⟩ => rfl
  have e2 : Read.ridx_main_v0 (ix4 b p q f) k = ix2 k f := by
    funext a
    match a with
    | ⟨0, _⟩ => rfl
    | ⟨1, _⟩ => rfl
  rw [e1, e2]

theorem v0_qkv (x0 : A0) (x1 : A1) (b : Fin 16) (n : Fin 4096) (f : Fin 384) :
    Read.val_main_v0 (F := Ideal) x0 x1 (ix4 b (tokP n) (tokQ n) f) = qkvOf (xF x0) (wF x1) b n f := by
  rw [v0_at]; rfl

/-- Column 32·h + d of the 128 columns of a third. -/
abbrev hdIx (h : Fin 4) (d : Fin 32) : Fin 128 := ⟨32 * h.val + d.val, by have := h.isLt; have := d.isLt; omega⟩

/-! The three rearrangements 'b x y (h c) -> b h c (x y)': read backwards, (b, h, d, n) comes from
    (b, h, d, n / 64, n % 64), that from (b, n / 64, n % 64, h, d), that from column 32·h + d of a third
    of the projected array. -/

theorem idx6_at (b : Fin 16) (h : Fin 4) (d : Fin 32) (n : Fin 4096) :
    Read.idx_main_v6 (ix4 b h d n) = ix5 b h d (tokP n) (tokQ n) := by
  have := b.isLt; have := h.isLt; have := d.isLt; have := n.isLt
  funext a
  match a with
  | ⟨0, _⟩ => apply Fin.ext; show (((b.val * 4 + h.val) * 32 + d.val) * 4096 + n.val) / 524288 = b.val; omega
  | ⟨1, _⟩ => apply Fin.ext; show (((b.val * 4 + h.val) * 32 + d.val) * 4096 + n.val) / 131072 % 4 = h.val; omega
  | ⟨2, _⟩ => apply Fin.ext; show (((b.val * 4 + h.val) * 32 + d.val) * 4096 + n.val) / 4096 % 32 = d.val; omega
  | ⟨3, _⟩ => apply Fin.ext; show (((b.val * 4 + h.val) * 32 + d.val) * 4096 + n.val) / 64 % 64 = n.val / 64; omega
  | ⟨4, _⟩ => apply Fin.ext; show (((b.val * 4 + h.val) * 32 + d.val) * 4096 + n.val) % 64 = n.val % 64; omega

theorem idx5_at (b : Fin 16) (h : Fin 4) (d : Fin 32) (p q : Fin 64) :
    Read.idx_main_v5 (ix5 b h d p q) = ix5 b p q h d := by
  funext a
  match a with
  | ⟨0, _⟩ => rfl
  | ⟨1, _⟩ => rfl
  | ⟨2, _⟩ => rfl
  | ⟨3, _⟩ => rfl
  | ⟨4, _⟩ => rfl

theorem idx4_at (b : Fin 16) (p q : Fin 64) (h : Fin 4) (d : Fin 32) :
    Read.idx_main_v4 (ix5 b p q h d) = ix4 b p q (hdIx h d) := by
  have := b.isLt; have := h.isLt; have := d.isLt; have := p.isLt; have := q.isLt
  funext a
  match a with
  | ⟨0, _⟩ => apply Fin.ext; show ((((b.val * 64 + p.val) * 64 + q.val) * 4 + h.val) * 32 + d.val) / 524288 = b.val; omega
  | ⟨1, _⟩ => apply Fin.ext; show ((((b.val * 64 + p.val) * 64 + q.val) * 4 + h.val) * 32 + d.val) / 8192 % 64 = p.val; omega
  | ⟨2, _⟩ => apply Fin.ext; show ((((b.val * 64 + p.val) * 64 + q.val) * 4 + h.val) * 32 + d.val) / 128 % 64 = q.val; omega
  | ⟨3, _⟩ => apply Fin.ext; show ((((b.val * 64 + p.val) * 64 + q.val) * 4 + h.val) * 32 + d.val) % 128 = 32 * h.val + d.val; omega

theorem idx1_at (b : Fin 16) (p q : Fin 64) (h : Fin 4) (d : Fin 32) :
    Read.idx_main_v1 (ix4 b p q (hdIx h d)) = ix4 b p q (qIx h d) := by
  funext a
  match a with
  | ⟨0, _⟩ => rfl
  | ⟨1, _⟩ => rfl
  | ⟨2, _⟩ => rfl
  | ⟨3, _⟩ => rfl

/-- The queries, laid out (b, h, d, n): the projected array at token n, column 32·h + d. -/
theorem v6_at (x0 : A0) (x1 : A1) (b : Fin 16) (h : Fin 4) (d : Fin 32) (n : Fin 4096) :
    Read.val_main_v6 (F := Ideal) x0 x1 (ix4 b h d n) = qkvOf (xF x0) (wF x1) b n (qIx h d) := by
  rw [Read.val_main_v6_apply, idx6_at, Read.val_main_v5_apply, idx5_at, Read.val_main_v4_apply, idx4_at,
    Read.val_main_v1_apply, idx1_at, v0_qkv]

theorem idx9_at (b : Fin 16) (h : Fin 4) (d : Fin 32) (n : Fin 4096) :
    Read.idx_main_v9 (ix4 b h d n) = ix5 b h d (tokP n) (tokQ n) := by
  have := b.isLt; have := h.isLt; have := d.isLt; have := n.isLt
  funext a
  match a with
  | ⟨0, _⟩ => apply Fin.ext; show (((b.val * 4 + h.val) * 32 + d.val) * 4096 + n.val) / 524288 = b.val; omega
  | ⟨1, _⟩ => apply Fin.ext; show (((b.val * 4 + h.val) * 32 + d.val) * 4096 + n.val) / 131072 % 4 = h.val; omega
  | ⟨2, _⟩ => apply Fin.ext; show (((b.val * 4 + h.val) * 32 + d.val) * 4096 + n.val) / 4096 % 32 = d.val; omega
  | ⟨3, _⟩ => apply Fin.ext; show (((b.val * 4 + h.val) * 32 + d.val) * 4096 + n.val) / 64 % 64 = n.val / 64; omega
  | ⟨4, _⟩ => apply Fin.ext; show (((b.val * 4 + h.val) * 32 + d.val) * 4096 + n.val) % 64 = n.val % 64; omega

theorem idx8_at (b : Fin 16) (h : Fin 4) (d : Fin 32) (p q : Fin 64) :
    Read.idx_main_v8 (ix5 b h d p q) = ix5 b p q h d := by
  funext a
  match a with
  | ⟨0, _⟩ => rfl
  | ⟨1, _⟩ => rfl
  | ⟨2, _⟩ => rfl
  | ⟨3, _⟩ => rfl
  | ⟨4, _⟩ => rfl

theorem idx7_at (b : Fin 16) (p q : Fin 64) (h : Fin 4) (d : Fin 32) :
    Read.idx_main_v7 (ix5 b p q h d) = ix4 b p q (hdIx h d) := by
  have := b.isLt; have := h.isLt; have := d.isLt; have := p.isLt; have := q.isLt
  funext a
  match a with
  | ⟨0, _⟩ => apply Fin.ext; show ((((b.val * 64 + p.val) * 64 + q.val) * 4 + h.val) * 32 + d.val) / 524288 = b.val; omega
  | ⟨1, _⟩ => apply Fin.ext; show ((((b.val * 64 + p.val) * 64 + q.val) * 4 + h.val) * 32 + d.val) / 8192 % 64 = p.val; omega
  | ⟨2, _⟩ => apply Fin.ext; show ((((b.val * 64 + p.val) * 64 + q.val) * 4 + h.val) * 32 + d.val) / 128 % 64 = q.val; omega
  | ⟨3, _⟩ => apply Fin.ext; show ((((b.val * 64 + p.val) * 64 + q.val) * 4 + h.val) * 32 + d.val) % 128 = 32 * h.val + d.val; omega

theorem idx2_at (b : Fin 16) (p q : Fin 64) (h : Fin 4) (d : Fin 32) :
    Read.idx_main_v2 (ix4 b p q (hdIx h d)) = ix4 b p q (kIx h d) := by
  funext a
  match a with
  | ⟨0, _⟩ => rfl
  | ⟨1, _⟩ => rfl
  | ⟨2, _⟩ => rfl
  | ⟨3, _⟩ => rfl

/-- The keys, laid out (b, h, d, n): the projected array at token n, column 128 + 32·h + d. -/
theorem v9_at (x0 : A0) (x1 : A1) (b : Fin 16) (h : Fin 4) (d : Fin 32) (n : Fin 4096) :
    Read.val_main_v9 (F := Ideal) x0 x1 (ix4 b h d n) = qkvOf (xF x0) (wF x1) b n (kIx h d) := by
  rw [Read.val_main_v9_apply, idx9_at, Read.val_main_v8_apply, idx8_at, Read.val_main_v7_apply, idx7_at,
    Read.val_main_v2_apply, idx2_at, v0_qkv]

theorem idx12_at (b : Fin 16) (h : Fin 4) (d : Fin 32) (n : Fin 4096) :
    Read.idx_main_v12 (ix4 b h d n) = ix5 b h d (tokP n) (tokQ n) := by
  have := b.isLt; have := h.isLt; have := d.isLt; have := n.isLt
  funext a
  match a with
  | ⟨0, _⟩ => apply Fin.ext; show (((b.val * 4 + h.val) * 32 + d.val) * 4096 + n.val) / 524288 = b.val; omega
  | ⟨1, _⟩ => apply Fin.ext; show (((b.val * 4 + h.val) * 32 + d.val) * 4096 + n.val) / 131072 % 4 = h.val; omega
  | ⟨2, _⟩ => apply Fin.ext; show (((b.val * 4 + h.val) * 32 + d.val) * 4096 + n.val) / 4096 % 32 = d.val; omega
  | ⟨3, _⟩ => apply Fin.ext; show (((b.val * 4 + h.val) * 32 + d.val) * 4096 + n.val) / 64 % 64 = n.val / 64; omega
  | ⟨4, _⟩ => apply Fin.ext; show (((b.val * 4 + h.val) * 32 + d.val) * 4096 + n.val) % 64 = n.val % 64; omega

theorem idx11_at (b : Fin 16) (h : Fin 4) (d : Fin 32) (p q : Fin 64) :
    Read.idx_main_v11 (ix5 b h d p q) = ix5 b p q h d := by
  funext a
  match a with
  | ⟨0, _⟩ => rfl
  | ⟨1, _⟩ => rfl
  | ⟨2, _⟩ => rfl
  | ⟨3, _⟩ => rfl
  | ⟨4, _⟩ => rfl

theorem idx10_at (b : Fin 16) (p q : Fin 64) (h : Fin 4) (d : Fin 32) :
    Read.idx_main_v10 (ix5 b p q h d) = ix4 b p q (hdIx h d) := by
  have := b.isLt; have := h.isLt; have := d.isLt; have := p.isLt; have := q.isLt
  funext a
  match a with
  | ⟨0, _⟩ => apply Fin.ext; show ((((b.val * 64 + p.val) * 64 + q.val) * 4 + h.val) * 32 + d.val) / 524288 = b.val; omega
  | ⟨1, _⟩ => apply Fin.ext; show ((((b.val * 64 + p.val) * 64 + q.val) * 4 + h.val) * 32 + d.val) / 8192 % 64 = p.val; omega
  | ⟨2, _⟩ => apply Fin.ext; show ((((b.val * 64 + p.val) * 64 + q.val) * 4 + h.val) * 32 + d.val) / 128 % 64 = q.val; omega
  | ⟨3, _⟩ => apply Fin.ext; show ((((b.val * 64 + p.val) * 64 + q.val) * 4 + h.val) * 32 + d.val) % 128 = 32 * h.val + d.val; omega

theorem idx3_at (b : Fin 16) (p q : Fin 64) (h : Fin 4) (d : Fin 32) :
    Read.idx_main_v3 (ix4 b p q (hdIx h d)) = ix4 b p q (vIx h d) := by
  funext a
  match a with
  | ⟨0, _⟩ => rfl
  | ⟨1, _⟩ => rfl
  | ⟨2, _⟩ => rfl
  | ⟨3, _⟩ => rfl

/-- The values, laid out (b, h, e, n): the projected array at token n, column 256 + 32·h + e. -/
theorem v12_at (x0 : A0) (x1 : A1) (b : Fin 16) (h : Fin 4) (d : Fin 32) (n : Fin 4096) :
    Read.val_main_v12 (F := Ideal) x0 x1 (ix4 b h d n) = qkvOf (xF x0) (wF x1) b n (vIx h d) := by
  rw [Read.val_main_v12_apply, idx12_at, Read.val_main_v11_apply, idx11_at, Read.val_main_v10_apply, idx10_at,
    Read.val_main_v3_apply, idx3_at, v0_qkv]

/-! ## The queries' soft-max over d -/

/-- The running maximum over d, from −∞ upward. -/
theorem v13_at (x0 : A0) (x1 : A1) (b : Fin 16) (h : Fin 4) (n : Fin 4096) :
    Read.val_main_v13 (F := Ideal) x0 x1 (ix3 b h n)
      = (Finset.univ : Finset (Fin 32)).fold max wNegInf (fun d' => qkvOf (xF x0) (wF x1) b n (qIx h d')) := by
  unfold Read.val_main_v13
  refine (HostReduce4.hostMax4_axis2_apply (Read.val_main_v6 (F := Ideal) x0 x1) (Read.val_main_cst (F := Ideal))
    reducesTo_S16x4x32x4096_S16x4x4096_d2 (by decide) h_S_ b h n).trans ?_
  exact congrArg (fun f => Finset.fold max wNegInf f (Finset.univ : Finset (Fin 32))) (funext fun k => v6_at x0 x1 b h k n)

theorem v15_at (x0 : A0) (x1 : A1) (b : Fin 16) (h : Fin 4) (n : Fin 4096) :
    Read.val_main_v15 (F := Ideal) x0 x1 (ix3 b h n)
      = max wNegInf ((Finset.univ : Finset (Fin 32)).fold max wNegInf (fun d' => qkvOf (xF x0) (wF x1) b n (qIx h d'))) := by
  rw [Read.val_main_v15_apply, v13_at]; rfl

theorem idx17_at (b : Fin 16) (h : Fin 4) (d : Fin 32) (n : Fin 4096) :
    Read.idx_main_v17 (ix4 b h d n) = ix4 b h (0 : Fin 1) n := by
  funext a
  match a with
  | ⟨0, _⟩ => rfl
  | ⟨1, _⟩ => rfl
  | ⟨2, _⟩ => rfl
  | ⟨3, _⟩ => rfl

theorem idx16_at (b : Fin 16) (h : Fin 4) (z : Fin 1) (n : Fin 4096) :
    Read.idx_main_v16 (ix4 b h z n) = ix3 b h n := by
  funext a
  match a with
  | ⟨0, _⟩ => rfl
  | ⟨1, _⟩ => rfl
  | ⟨2, _⟩ => rfl

/-- The shifted exponential of a query. -/
theorem v19_at (x0 : A0) (x1 : A1) (b : Fin 16) (h : Fin 4) (d : Fin 32) (n : Fin 4096) :
    Read.val_main_v19 (F := Ideal) x0 x1 (ix4 b h d n)
      = expShift (fun d' => qkvOf (xF x0) (wF x1) b n (qIx h d')) d := by
  rw [Read.val_main_v19_apply, Read.val_main_v18_apply, Read.val_main_v17_apply, idx17_at, Read.val_main_v16_apply,
    idx16_at, v15_at, v6_at]
  rfl

theorem idx20_at (b : Fin 16) (h : Fin 4) (n : Fin 4096) (k : Fin 32) :
    Read.idx_main_v20 (ix3 b h n) k = ix4 b h k n := by
  funext a
  match a with
  | ⟨0, _⟩ => rfl
  | ⟨1, _⟩ => rfl
  | ⟨2, _⟩ => rfl
  | ⟨3, _⟩ => rfl

/-- The soft-max's denominator. -/
theorem v20_at (x0 : A0) (x1 : A1) (b : Fin 16) (h : Fin 4) (n : Fin 4096) :
    Read.val_main_v20 (F := Ideal) x0 x1 (ix3 b h n)
      = ∑ d', expShift (fun d' => qkvOf (xF x0) (wF x1) b n (qIx h d')) d' := by
  rw [Read.val_main_v20_apply]
  show Ideal.ofBits .f32 0x00000000#32 + _ = _
  rw [Ideal.ofBits_zero_f32, zero_add]
  exact Finset.sum_congr rfl fun k _ => by rw [idx20_at, v19_at]

theorem idx22_at (b : Fin 16) (h : Fin 4) (d : Fin 32) (n : Fin 4096) :
    Read.idx_main_v22 (ix4 b h d n) = ix4 b h (0 : Fin 1) n := by
  funext a
  match a with
  | ⟨0, _⟩ => rfl
  | ⟨1, _⟩ => rfl
  | ⟨2, _⟩ => rfl
  | ⟨3, _⟩ => rfl

theorem idx21_at (b : Fin 16) (h : Fin 4) (z : Fin 1) (n : Fin 4096) :
    Read.idx_main_v21 (ix4 b h z n) = ix3 b h n := by
  funext a
  match a with
  | ⟨0, _⟩ => rfl
  | ⟨1, _⟩ => rfl
  | ⟨2, _⟩ => rfl

/-- The scaled soft-max of the queries. -/
theorem v25_at (x0 : A0) (x1 : A1) (b : Fin 16) (h : Fin 4) (d : Fin 32) (n : Fin 4096) :
    Read.val_main_v25 (F := Ideal) x0 x1 (ix4 b h d n) = qs (qkvOf (xF x0) (wF x1) b) h n d := by
  rw [Read.val_main_v25_apply, Read.val_main_v23_apply, Read.val_main_v22_apply, idx22_at, Read.val_main_v21_apply,
    idx21_at, v20_at, v19_at, Read.val_main_v24_apply, Read.val_main_cst_2_apply]
  rfl

/-! ## The keys' soft-max over the tokens -/

/-- The running maximum over the tokens, from −∞ upward. -/
theorem v26_at (x0 : A0) (x1 : A1) (b : Fin 16) (h : Fin 4) (d : Fin 32) :
    Read.val_main_v26 (F := Ideal) x0 x1 (ix3 b h d)
      = (Finset.univ : Finset (Fin 4096)).fold max wNegInf (fun n' => qkvOf (xF x0) (wF x1) b n' (kIx h d)) := by
  unfold Read.val_main_v26
  refine (HostReduce4.hostMax4_axis3_apply (Read.val_main_v9 (F := Ideal) x0 x1) (Read.val_main_cst_3 (F := Ideal))
    reducesTo_S16x4x32x4096_S16x4x32_d3 (by decide) h_S_ b h d).trans ?_
  exact congrArg (fun f => Finset.fold max wNegInf f (Finset.univ : Finset (Fin 4096))) (funext fun k => v9_at x0 x1 b h d k)

theorem v28_at (x0 : A0) (x1 : A1) (b : Fin 16) (h : Fin 4) (d : Fin 32) :
    Read.val_main_v28 (F := Ideal) x0 x1 (ix3 b h d)
      = max wNegInf ((Finset.univ : Finset (Fin 4096)).fold max wNegInf (fun n' => qkvOf (xF x0) (wF x1) b n' (kIx h d))) := by
  rw [Read.val_main_v28_apply, v26_at]; rfl

theorem idx30_at (b : Fin 16) (h : Fin 4) (d : Fin 32) (n : Fin 4096) :
    Read.idx_main_v30 (ix4 b h d n) = ix4 b h d (0 : Fin 1) := by
  funext a
  match a with
  | ⟨0, _⟩ => rfl
  | ⟨1, _⟩ => rfl
  | ⟨2, _⟩ => rfl
  | ⟨3, _⟩ => rfl

theorem idx29_at (b : Fin 16) (h : Fin 4) (d : Fin 32) (z : Fin 1) :
    Read.idx_main_v29 (ix4 b h d z) = ix3 b h d := by
  funext a
  match a with
  | ⟨0, _⟩ => rfl
  | ⟨1, _⟩ => rfl
  | ⟨2, _⟩ => rfl

/-- The shifted exponential of a key. -/
theorem v32_at (x0 : A0) (x1 : A1) (b : Fin 16) (h : Fin 4) (d : Fin 32) (n : Fin 4096) :
    Read.val_main_v32 (F := Ideal) x0 x1 (ix4 b h d n)
      = expShift (fun n' => qkvOf (xF x0) (wF x1) b n' (kIx h d)) n := by
  rw [Read.val_main_v32_apply, Read.val_main_v31_apply, Read.val_main_v30_apply, idx30_at, Read.val_main_v29_apply,
    idx29_at, v28_at, v9_at]
  rfl

theorem idx33_at (b : Fin 16) (h : Fin 4) (d : Fin 32) (k : Fin 4096) :
    Read.idx_main_v33 (ix3 b h d) k = ix4 b h d k := by
  funext a
  match a with
  | ⟨0, _⟩ => rfl
  | ⟨1, _⟩ => rfl
  | ⟨2, _⟩ => rfl
  | ⟨3, _⟩ => rfl

/-- The soft-max's denominator. -/
theorem v33_at (x0 : A0) (x1 : A1) (b : Fin 16) (h : Fin 4) (d : Fin 32) :
    Read.val_main_v33 (F := Ideal) x0 x1 (ix3 b h d)
      = ∑ n', expShift (fun n' => qkvOf (xF x0) (wF x1) b n' (kIx h d)) n' := by
  rw [Read.val_main_v33_apply]
  show Ideal.ofBits .f32 0x00000000#32 + _ = _
  rw [Ideal.ofBits_zero_f32, zero_add]
  exact Finset.sum_congr rfl fun k _ => by rw [idx33_at, v32_at]

theorem idx35_at (b : Fin 16) (h : Fin 4) (d : Fin 32) (n : Fin 4096) :
    Read.idx_main_v35 (ix4 b h d n) = ix4 b h d (0 : Fin 1) := by
  funext a
  match a with
  | ⟨0, _⟩ => rfl
  | ⟨1, _⟩ => rfl
  | ⟨2, _⟩ => rfl
  | ⟨3, _⟩ => rfl

theorem idx34_at (b : Fin 16) (h : Fin 4) (d : Fin 32) (z : Fin 1) :
    Read.idx_main_v34 (ix4 b h d z) = ix3 b h d := by
  funext a
  match a with
  | ⟨0, _⟩ => rfl
  | ⟨1, _⟩ => rfl
  | ⟨2, _⟩ => rfl

/-- The soft-max of the keys. -/
theorem v36_at (x0 : A0) (x1 : A1) (b : Fin 16) (h : Fin 4) (d : Fin 32) (n : Fin 4096) :
    Read.val_main_v36 (F := Ideal) x0 x1 (ix4 b h d n) = ks (qkvOf (xF x0) (wF x1) b) h n d := by
  rw [Read.val_main_v36_apply, Read.val_main_v35_apply, idx35_at, Read.val_main_v34_apply, idx34_at, v33_at, v32_at]
  rfl

/-! ## The context and the heads' results -/

theorem lidx37_at (b : Fin 16) (h : Fin 4) (d e : Fin 32) (k : Fin 4096) :
    Read.lidx_main_v37 (ix4 b h d e) k = ix4 b h d k := by
  funext a
  match a with
  | ⟨0, _⟩ => rfl
  | ⟨1, _⟩ => rfl
  | ⟨2, _⟩ => rfl
  | ⟨3, _⟩ => rfl

theorem ridx37_at (b : Fin 16) (h : Fin 4) (d e : Fin 32) (k : Fin 4096) :
    Read.ridx_main_v37 (ix4 b h d e) k = ix4 b h e k := by
  funext a
  match a with
  | ⟨0, _⟩ => rfl
  | ⟨1, _⟩ => rfl
  | ⟨2, _⟩ => rfl
  | ⟨3, _⟩ => rfl

/-- The context: keys against values over the tokens. -/
theorem v37_at (x0 : A0) (x1 : A1) (b : Fin 16) (h : Fin 4) (d e : Fin 32) :
    Read.val_main_v37 (F := Ideal) x0 x1 (ix4 b h d e) = ctx (qkvOf (xF x0) (wF x1) b) h d e := by
  rw [Read.val_main_v37_apply]
  exact Finset.sum_congr rfl fun k _ => by rw [lidx37_at, ridx37_at, v36_at, v12_at]

theorem lidx38_at (b : Fin 16) (h : Fin 4) (e : Fin 32) (n : Fin 4096) (k : Fin 32) :
    Read.lidx_main_v38 (ix4 b h e n) k = ix4 b h k e := by
  funext a
  match a with
  | ⟨0, _⟩ => rfl
  | ⟨1, _⟩ => rfl
  | ⟨2, _⟩ => rfl
  | ⟨3, _⟩ => rfl

theorem ridx38_at (b : Fin 16) (h : Fin 4) (e : Fin 32) (n : Fin 4096) (k : Fin 32) :
    Read.ridx_main_v38 (ix4 b h e n) k = ix4 b h k n := by
  funext a
  match a with
  | ⟨0, _⟩ => rfl
  | ⟨1, _⟩ => rfl
  | ⟨2, _⟩ => rfl
  | ⟨3, _⟩ => rfl

/-- A head's result, laid out (b, h, e, n); the reference multiplies context by query, the common function query by context. -/
theorem v38_at (x0 : A0) (x1 : A1) (b : Fin 16) (h : Fin 4) (e : Fin 32) (n : Fin 4096) :
    Read.val_main_v38 (F := Ideal) x0 x1 (ix4 b h e n) = headOut (qkvOf (xF x0) (wF x1) b) h n e := by
  rw [Read.val_main_v38_apply]
  exact Finset.sum_congr rfl fun k _ => by rw [lidx38_at, ridx38_at, v37_at, v25_at, mul_comm]

/-! ## Back to pixels: 'b h c (x y) -> b x y (h c)' -/

/-- Column j of the 128 side-by-side columns is head j / 32, column j % 32. -/
abbrev jH (j : Fin 128) : Fin 4 := ⟨j.val / 32, by have := j.isLt; omega⟩
abbrev jE (j : Fin 128) : Fin 32 := ⟨j.val % 32, Nat.mod_lt _ (by decide)⟩

theorem idx41_at (b : Fin 16) (p q : Fin 64) (j : Fin 128) :
    Read.idx_main_v41 (ix4 b p q j) = ix5 b p q (jH j) (jE j) := by
  have := b.isLt; have := p.isLt; have := q.isLt; have := j.isLt
  funext a
  match a with
  | ⟨0, _⟩ => apply Fin.ext; show (((b.val * 64 + p.val) * 64 + q.val) * 128 + j.val) / 524288 = b.val; omega
  | ⟨1, _⟩ => apply Fin.ext; show (((b.val * 64 + p.val) * 64 + q.val) * 128 + j.val) / 8192 % 64 = p.val; omega
  | ⟨2, _⟩ => apply Fin.ext; show (((b.val * 64 + p.val) * 64 + q.val) * 128 + j.val) / 128 % 64 = q.val; omega
  | ⟨3, _⟩ => apply Fin.ext; show (((b.val * 64 + p.val) * 64 + q.val) * 128 + j.val) / 32 % 4 = j.val / 32; omega
  | ⟨4, _⟩ => apply Fin.ext; show (((b.val * 64 + p.val) * 64 + q.val) * 128 + j.val) % 32 = j.val % 32; omega

theorem idx40_at (b : Fin 16) (p q : Fin 64) (h : Fin 4) (e : Fin 32) :
    Read.idx_main_v40 (ix5 b p q h e) = ix5 b h e p q := by
  funext a
  match a with
  | ⟨0, _⟩ => rfl
  | ⟨1, _⟩ => rfl
  | ⟨2, _⟩ => rfl
  | ⟨3, _⟩ => rfl
  | ⟨4, _⟩ => rfl

theorem idx39_at (b : Fin 16) (p q : Fin 64) (h : Fin 4) (e : Fin 32) :
    Read.idx_main_v39 (ix5 b h e p q) = ix4 b h e (tok p q) := by
  have := b.isLt; have := p.isLt; have := q.isLt; have := h.isLt; have := e.isLt
  funext a
  match a with
  | ⟨0, _⟩ => apply Fin.ext; show ((((b.val * 4 + h.val) * 32 + e.val) * 64 + p.val) * 64 + q.val) / 524288 = b.val; omega
  | ⟨1, _⟩ => apply Fin.ext; show ((((b.val * 4 + h.val) * 32 + e.val) * 64 + p.val) * 64 + q.val) / 131072 % 4 = h.val; omega
  | ⟨2, _⟩ => apply Fin.ext; show ((((b.val * 4 + h.val) * 32 + e.val) * 64 + p.val) * 64 + q.val) / 4096 % 32 = e.val; omega
  | ⟨3, _⟩ => apply Fin.ext; show ((((b.val * 4 + h.val) * 32 + e.val) * 64 + p.val) * 64 + q.val) % 4096 = p.val * 64 + q.val; omega

/-- The heads' results side by side, at pixel (p, q). -/
theorem v41_at (x0 : A0) (x1 : A1) (b : Fin 16) (p q : Fin 64) (j : Fin 128) :
    Read.val_main_v41 (F := Ideal) x0 x1 (ix4 b p q j) = attn (qkvOf (xF x0) (wF x1) b) (tok p q) j := by
  rw [Read.val_main_v41_apply, idx41_at, Read.val_main_v40_apply, idx40_at, Read.val_main_v39_apply, idx39_at, v38_at]
  rfl

/-! ## The output projection -/

abbrev woF (x2 : A2) : Fin 128 → Fin 256 → EReal := fun j c => x2 (ix2 j c)
abbrev vF (x : A3) : Fin 256 → EReal := fun c => x (ix1 c)

theorem lidx42_at (b : Fin 16) (p q : Fin 64) (c : Fin 256) (k : Fin 128) :
    Read.lidx_main_v42 (ix4 b p q c) k = ix4 b p q k := by
  funext a
  match a with
  | ⟨0, _⟩ => rfl
  | ⟨1, _⟩ => rfl
  | ⟨2, _⟩ => rfl
  | ⟨3, _⟩ => rfl

theorem ridx42_at (b : Fin 16) (p q : Fin 64) (c : Fin 256) (k : Fin 128) :
    Read.ridx_main_v42 (ix4 b p q c) k = ix2 k c := by
  funext a
  match a with
  | ⟨0, _⟩ => rfl
  | ⟨1, _⟩ => rfl

theorem idx44_at (b : Fin 16) (p q : Fin 64) (c : Fin 256) :
    Read.idx_main_v44 (ix4 b p q c) = ix4 (0 : Fin 1) (0 : Fin 1) (0 : Fin 1) c := by
  funext a
  match a with
  | ⟨0, _⟩ => rfl
  | ⟨1, _⟩ => rfl
  | ⟨2, _⟩ => rfl
  | ⟨3, _⟩ => rfl

theorem idx43_at (z0 z1 z2 : Fin 1) (c : Fin 256) :
    Read.idx_main_v43 (ix4 z0 z1 z2 c) = ix1 c := by
  funext a
  match a with
  | ⟨0, _⟩ => rfl

/-- The projected row with its bias. -/
theorem v45_at (x0 : A0) (x1 : A1) (x2 : A2) (x3 : A3) (b : Fin 16) (p q : Fin 64) (c : Fin 256) :
    Read.val_main_v45 (F := Ideal) x0 x1 x2 x3 (ix4 b p q c)
      = proj (qkvOf (xF x0) (wF x1) b) (woF x2) (vF x3) (tok p q) c := by
  rw [Read.val_main_v45_apply, Read.val_main_v42_apply, Read.val_main_v44_apply, idx44_at, Read.val_main_v43_apply, idx43_at]
  refine congrArg (· + x3 (ix1 c)) ?_
  exact Finset.sum_congr rfl fun k _ => by rw [lidx42_at, ridx42_at, v41_at]

/-! ## The layer normalisation -/

/-- The projected row at pixel (p, q) of image b. -/
abbrev yF (x0 : A0) (x1 : A1) (x2 : A2) (x3 : A3) (b : Fin 16) (p q : Fin 64) : Fin 256 → EReal :=
  fun c' => proj (qkvOf (xF x0) (wF x1) b) (woF x2) (vF x3) (tok p q) c'

theorem idx46_at (b : Fin 16) (p q : Fin 64) (k : Fin 256) :
    Read.idx_main_v46 (ix3 b p q) k = ix4 b p q k := by
  funext a
  match a with
  | ⟨0, _⟩ => rfl
  | ⟨1, _⟩ => rfl
  | ⟨2, _⟩ => rfl
  | ⟨3, _⟩ => rfl

theorem idx47_at (b : Fin 16) (p q : Fin 64) (z : Fin 1) :
    Read.idx_main_v47 (ix4 b p q z) = ix3 b p q := by
  funext a
  match a with
  | ⟨0, _⟩ => rfl
  | ⟨1, _⟩ => rfl
  | ⟨2, _⟩ => rfl

theorem idx50_at (b : Fin 16) (p q : Fin 64) (c : Fin 256) :
    Read.idx_main_v50 (ix4 b p q c) = ix4 b p q (0 : Fin 1) := by
  funext a
  match a with
  | ⟨0, _⟩ => rfl
  | ⟨1, _⟩ => rfl
  | ⟨2, _⟩ => rfl
  | ⟨3, _⟩ => rfl

theorem idx53_at (b : Fin 16) (p q : Fin 64) (k : Fin 256) :
    Read.idx_main_v53 (ix3 b p q) k = ix4 b p q k := by
  funext a
  match a with
  | ⟨0, _⟩ => rfl
  | ⟨1, _⟩ => rfl
  | ⟨2, _⟩ => rfl
  | ⟨3, _⟩ => rfl

theorem idx54_at (b : Fin 16) (p q : Fin 64) (z : Fin 1) :
    Read.idx_main_v54 (ix4 b p q z) = ix3 b p q := by
  funext a
  match a with
  | ⟨0, _⟩ => rfl
  | ⟨1, _⟩ => rfl
  | ⟨2, _⟩ => rfl

theorem idx57_at (b : Fin 16) (p q : Fin 64) (c : Fin 256) :
    Read.idx_main_v57 (ix4 b p q c) = ix4 b p q (0 : Fin 1) := by
  funext a
  match a with
  | ⟨0, _⟩ => rfl
  | ⟨1, _⟩ => rfl
  | ⟨2, _⟩ => rfl
  | ⟨3, _⟩ => rfl

theorem idx62_at (b : Fin 16) (p q : Fin 64) (c : Fin 256) :
    Read.idx_main_v62 (ix4 b p q c) = ix4 b p q (0 : Fin 1) := by
  funext a
  match a with
  | ⟨0, _⟩ => rfl
  | ⟨1, _⟩ => rfl
  | ⟨2, _⟩ => rfl
  | ⟨3, _⟩ => rfl

theorem idx65_at (b : Fin 16) (p q : Fin 64) (c : Fin 256) :
    Read.idx_main_v65 (ix4 b p q c) = ix4 (0 : Fin 1) (0 : Fin 1) (0 : Fin 1) c := by
  funext a
  match a with
  | ⟨0, _⟩ => rfl
  | ⟨1, _⟩ => rfl
  | ⟨2, _⟩ => rfl
  | ⟨3, _⟩ => rfl

theorem idx64_at (z0 z1 z2 : Fin 1) (c : Fin 256) :
    Read.idx_main_v64 (ix4 z0 z1 z2 c) = ix1 c := by
  funext a
  match a with
  | ⟨0, _⟩ => rfl

theorem idx68_at (b : Fin 16) (p q : Fin 64) (c : Fin 256) :
    Read.idx_main_v68 (ix4 b p q c) = ix4 (0 : Fin 1) (0 : Fin 1) (0 : Fin 1) c := by
  funext a
  match a with
  | ⟨0, _⟩ => rfl
  | ⟨1, _⟩ => rfl
  | ⟨2, _⟩ => rfl
  | ⟨3, _⟩ => rfl

theorem idx67_at (z0 z1 z2 : Fin 1) (c : Fin 256) :
    Read.idx_main_v67 (ix4 z0 z1 z2 c) = ix1 c := by
  funext a
  match a with
  | ⟨0, _⟩ => rfl

/-- The row's sum. -/
theorem v46_at (x0 : A0) (x1 : A1) (x2 : A2) (x3 : A3) (b : Fin 16) (p q : Fin 64) :
    Read.val_main_v46 (F := Ideal) x0 x1 x2 x3 (ix3 b p q) = ∑ c, yF x0 x1 x2 x3 b p q c := by
  rw [Read.val_main_v46_apply]
  show Ideal.ofBits .f32 0x00000000#32 + _ = _
  rw [Ideal.ofBits_zero_f32, zero_add]
  exact Finset.sum_congr rfl fun k _ => by rw [idx46_at, v45_at]

/-- The row's mean. -/
theorem v49_at (x0 : A0) (x1 : A1) (x2 : A2) (x3 : A3) (b : Fin 16) (p q : Fin 64) (z : Fin 1) :
    Read.val_main_v49 (F := Ideal) x0 x1 x2 x3 (ix4 b p q z) = mean256 (yF x0 x1 x2 x3 b p q) := by
  rw [Read.val_main_v49_apply, Read.val_main_v47_apply, idx47_at, v46_at, Read.val_main_v48_apply, Read.val_main_cst_7_apply]
  rfl

/-- The centred row. -/
theorem v51_at (x0 : A0) (x1 : A1) (x2 : A2) (x3 : A3) (b : Fin 16) (p q : Fin 64) (c : Fin 256) :
    Read.val_main_v51 (F := Ideal) x0 x1 x2 x3 (ix4 b p q c)
      = yF x0 x1 x2 x3 b p q c - mean256 (yF x0 x1 x2 x3 b p q) := by
  rw [Read.val_main_v51_apply, v45_at, Read.val_main_v50_apply, idx50_at, v49_at]
  rfl

/-- The sum of the squares of the centred row. -/
theorem v53_at (x0 : A0) (x1 : A1) (x2 : A2) (x3 : A3) (b : Fin 16) (p q : Fin 64) :
    Read.val_main_v53 (F := Ideal) x0 x1 x2 x3 (ix3 b p q)
      = ∑ c', (yF x0 x1 x2 x3 b p q c' - mean256 (yF x0 x1 x2 x3 b p q)) * (yF x0 x1 x2 x3 b p q c' - mean256 (yF x0 x1 x2 x3 b p q)) := by
  rw [Read.val_main_v53_apply]
  show Ideal.ofBits .f32 0x00000000#32 + _ = _
  rw [Ideal.ofBits_zero_f32, zero_add]
  exact Finset.sum_congr rfl fun k _ => by rw [idx53_at, Read.val_main_v52_apply, v51_at]; rfl

/-- The row's variance. -/
theorem v56_at (x0 : A0) (x1 : A1) (x2 : A2) (x3 : A3) (b : Fin 16) (p q : Fin 64) (z : Fin 1) :
    Read.val_main_v56 (F := Ideal) x0 x1 x2 x3 (ix4 b p q z)
      = mean256 (fun c' => (yF x0 x1 x2 x3 b p q c' - mean256 (yF x0 x1 x2 x3 b p q)) * (yF x0 x1 x2 x3 b p q c' - mean256 (yF x0 x1 x2 x3 b p q))) := by
  rw [Read.val_main_v56_apply, Read.val_main_v54_apply, idx54_at, v53_at, Read.val_main_v55_apply, Read.val_main_cst_9_apply]
  rfl

/-- The centred row again (the reference computes it twice). -/
theorem v58_at (x0 : A0) (x1 : A1) (x2 : A2) (x3 : A3) (b : Fin 16) (p q : Fin 64) (c : Fin 256) :
    Read.val_main_v58 (F := Ideal) x0 x1 x2 x3 (ix4 b p q c)
      = yF x0 x1 x2 x3 b p q c - mean256 (yF x0 x1 x2 x3 b p q) := by
  rw [Read.val_main_v58_apply, v45_at, Read.val_main_v57_apply, idx57_at, v49_at]
  rfl

/-- The reciprocal square root of the variance plus epsilon. -/
theorem v61_at (x0 : A0) (x1 : A1) (x2 : A2) (x3 : A3) (b : Fin 16) (p q : Fin 64) (z : Fin 1) :
    Read.val_main_v61 (F := Ideal) x0 x1 x2 x3 (ix4 b p q z)
      = Ideal.rsqrt (mean256 (fun c' => (yF x0 x1 x2 x3 b p q c' - mean256 (yF x0 x1 x2 x3 b p q)) * (yF x0 x1 x2 x3 b p q c' - mean256 (yF x0 x1 x2 x3 b p q))) + wEps) := by
  rw [Read.val_main_v61_apply, Read.val_main_v60_apply, v56_at, Read.val_main_v59_apply, Read.val_main_cst_10_apply]
  rfl

/-- The reference's result at image b, pixel (p, q), channel c is the common function there. -/
theorem ref_result (x0 : (⟨S16x64x64x256, .f32⟩ : BufTy).Contents (Elt Ideal)) (x1 : (⟨S256x384, .f32⟩ : BufTy).Contents (Elt Ideal)) (x2 : (⟨S128x256, .f32⟩ : BufTy).Contents (Elt Ideal)) (x3 x4 x5 : (⟨S256, .f32⟩ : BufTy).Contents (Elt Ideal)) (b : Fin 16) (p q : Fin 64) (c : Fin 256) :
      Read.val_main_v69 (F := Ideal) x0 x1 x2 x3 x4 x5 (ix4 b p q c)
        = Cert.LinAttn.result (fun b p q c => x0 (ix4 b p q c)) (fun c f => x1 (ix2 c f)) (fun j c => x2 (ix2 j c)) (fun c => x3 (ix1 c)) (fun c => x4 (ix1 c)) (fun c => x5 (ix1 c)) b p q c := by
  rw [Read.val_main_v69_apply, Read.val_main_v66_apply, Read.val_main_v63_apply, v58_at, Read.val_main_v62_apply, idx62_at, v61_at,
    Read.val_main_v65_apply, idx65_at, Read.val_main_v64_apply, idx64_at, Read.val_main_v68_apply, idx68_at,
    Read.val_main_v67_apply, idx67_at]
  rfl

end Cert.ReferenceIdeal.RefValue

end
-- ==== Proof.RefWhole.lean ====
/-
  The reference's result array is the specification's whole array of its six arguments.
-/
import proofs.«122063_j5257039970858_2_alg».proof.Proof.RefValue
import proofs.«122063_j5257039970858_2_alg».proof.Proof.SpecArray

noncomputable section

namespace Cert.ReferenceIdeal.RefValue

open Cert.ReferenceIdeal Cert.ReferenceIdeal.Read Idealize.ShloMosaic Idealize.ShloMosaic.ValueIdx Cert.LinAttn

/-- Index by index, the reference's last operation is the specification's result at the index's coordinates. -/
theorem ref_whole (x0 : (⟨S16x64x64x256, .f32⟩ : BufTy).Contents (Elt Ideal)) (x1 : (⟨S256x384, .f32⟩ : BufTy).Contents (Elt Ideal))
    (x2 : (⟨S128x256, .f32⟩ : BufTy).Contents (Elt Ideal)) (x3 x4 x5 : (⟨S256, .f32⟩ : BufTy).Contents (Elt Ideal)) :
    Read.val_main_v69 (F := Ideal) x0 x1 x2 x3 x4 x5 = wholeArray x0 x1 x2 x3 x4 x5 := by
  funext i
  obtain ⟨b, p, q, ch, rfl⟩ : ∃ (b : Fin 16) (p q : Fin 64) (ch : Fin 256), i = ix4 b p q ch := ⟨i 0, i 1, i 2, i 3, eq_ix4 i⟩
  exact ref_result x0 x1 x2 x3 x4 x5 b p q ch

end Cert.ReferenceIdeal.RefValue

end
-- ==== Proof.lean ====
/-
  The certificate of a fused linear-attention block: a query / key / value projection of each image's 4096 tokens, four
  heads of attention with the queries soft-maxed over the head's 32 features (and scaled) and the keys soft-maxed over the
  tokens, an output projection with bias, and a layer normalisation over the 256 channels — one kernel launched over the
  16 images, against the plain array program.

  At the extended reals both programs compute ONE function of the six argument arrays (`Cert.LinAttn.wholeArray`,
  Proof/Spec.lean and Proof/SpecArray.lean). The two differ only in arrangement: the kernel works image by image on
  tokens × features matrices and forms each head's result as queries · (keysᵀ · values) with matrix products into zero
  accumulators; the reference carries the batch and the heads as array axes, transposes tokens and features, and contracts
  with general dot products. A matrix product into zero and a general dot product are the same sum; a row or column
  reduction and the host's axis reduction are the same fold; a change of float format is the identity. The only algebraic
  law used between the two sides is the commutativity of the product (the reference multiplies context · queries), so the
  precondition is never opened.

  Kernel side: Proof/KSoftmax.lean, KMatmul.lean, KHeads.lean, KTail.lean (the body's stages read at coordinates),
  KBody.lean (the stored block), KBlocks.lean and KWhole.lean (blocks to the whole array, the run).
  Reference side: Proof/RefValue.lean and RefWhole.lean over the generated run and its read-at-an-index lemmas.
-/
import proofs.«122063_j5257039970858_2_alg».proof.Defs
import proofs.«122063_j5257039970858_2_alg».proof.Proof.Gen.Kernel
import proofs.«122063_j5257039970858_2_alg».proof.Proof.Gen.Kernel.Skeleton
import proofs.«122063_j5257039970858_2_alg».proof.Proof.Gen.Kernel.Launch
import proofs.«122063_j5257039970858_2_alg».proof.Proof.Gen.Kernel.Points
import proofs.«122063_j5257039970858_2_alg».proof.Proof.Gen.Kernel.Frame
import proofs.«122063_j5257039970858_2_alg».proof.Proof.Gen.KernelIdeal
import proofs.«122063_j5257039970858_2_alg».proof.Proof.Gen.KernelIdeal.Skeleton
import proofs.«122063_j5257039970858_2_alg».proof.Proof.Gen.KernelIdeal.Launch
import proofs.«122063_j5257039970858_2_alg».proof.Proof.Gen.KernelIdeal.Points
import proofs.«122063_j5257039970858_2_alg».proof.Proof.Gen.KernelIdeal.Frame
import proofs.«122063_j5257039970858_2_alg».proof.Proof.Gen.ReferenceIdeal
import proofs.«122063_j5257039970858_2_alg».proof.Proof.Gen.ReferenceIdeal.Run
import proofs.«122063_j5257039970858_2_alg».proof.Proof.Gen.ReferenceIdeal.Read
import proofs.«122063_j5257039970858_2_alg».proof.Proof.Gen.Pre_finite_inputs
import proofs.«122063_j5257039970858_2_alg».proof.Proof.KWhole
import proofs.«122063_j5257039970858_2_alg».proof.Proof.RefWhole
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Gen.frame m ρ

/-- The kernel at the extended reals runs and leaves its arguments unchanged. -/
theorem frame_ki : Cert.frame_KernelIdeal := fun m ρ _ => Cert.KernelIdeal.Gen.frame m ρ

/-- The reference runs and leaves its arguments unchanged: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealisation rewrote nothing. -/
theorem preserves : Cert.preserves_Kernel_KernelIdeal := trivial

/-- From memories agreeing on the arguments both programs end with the specification's whole array of those arguments. -/
theorem algebraic : Cert.algebraic_KernelIdeal_ReferenceIdeal := by
  intro m ρ m' ρ' _ hagree
  refine ⟨fun c => Cert.KernelIdeal.Whole.final m c, Cert.KernelIdeal.Whole.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v69_eq, Cert.ReferenceIdeal.RefValue.ref_whole,
    (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
